-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x64 : Shape := ⟨2, ![128, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S1x128 : Shape := ⟨2, ![1, 128]⟩
abbrev S800000x64 : Shape := ⟨2, ![800000, 64]⟩
abbrev S1x64 : Shape := ⟨2, ![1, 64]⟩
abbrev S5000 : Shape := ⟨1, ![5000]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S128x64, .f32⟩
  | .hbm, ⟨41, _⟩ => ⟨S50000x128, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S128x64, .f32⟩
  | .hbm, ⟨57, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000, .f32⟩
  | .hbm, ⟨95, _⟩ => ⟨S50000x1, .f32⟩
  | .hbm, ⟨96, _⟩ => ⟨S50000x1, .f32⟩
  | .hbm, ⟨97, _⟩ => ⟨S50000x64, .f32⟩
  | .hbm, ⟨98, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v60 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its RESULT named: every weakly fair execution of @main terminates, nothing
  faulting, and the final memory holds, at the result buffer, what the second region's write-backs leave there
  (the fold `Gen.W4` of the two host stretches and the two regions over the launch memory), the arguments as
  launched. The frame run states only the arguments; the final thread state holds every unscoped buffer at the
  fold's contents, so the result is read off the same state.
-/
import proofs.«116715_j20512763806336_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the fold's contents. -/
theorem run : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«116715_j20512763806336_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibMlpLayers.lean ====
/-
  The layers of a small perceptron as a kernel body prints them, read at an entry on the extended reals.

  A kernel loads a layer's bias as a vector `[N]`, casts it to the one row `[1, N]` and broadcasts that row over the
  `M` rows of a `tpu.matmul` into the zero accumulator. Read at `(p, c)` the sum is over the contracted coordinate of
  left `(p, k)` times right `(k, c)`, plus the bias at `c` (`Cert.Lib.DenseLayer.layer_apply`, which this file
  imports, with the cast of the vector to a row read back): `linear_apply`; under `math.tanh`: `tanh_layer_apply`.
  A read-out layer has ONE output column: its matmul is `[M, K] × [K, 1]`, two scalars `[1]` are each cast to
  `[1, 1]`, broadcast down the column and added, and the column `[M, 1]` is cast to the vector `[M]`; read at `p` it is
  the sum over `k` of left `(p, k)` times right `(k, 0)`, plus the first scalar, plus the second: `readout_apply`.
  `shapeCast_a1_a_apply` is the cast of a column to a vector read at an index. Every statement takes the
  contraction record through the six facts of a plain matrix product, each decidable at a literal record, and the
  operands at any float formats (a change of format is the identity on the extended reals).
-/
import proofs.«116715_j20512763806336_2_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.MlpLayers

open Idealize.ShloMosaic Idealize.ShloMosaic.ValueIdx

/-- A column `[a, 1]` cast to the vector `[a]` reads, at `i`, the column at `(i, 0)`: the two indices have the same
    row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A matmul into the zero accumulator plus a bias VECTOR `[N]` (cast to a row, the row broadcast over the rows),
    read at `(p, c)`: the sum over the contracted coordinate, plus the vector at `c`. -/
theorem linear_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    addf (matmul D none L R (constant (F := Ideal) ⟨2, ![M, N]⟩ .f32 0x00000000#32))
        (broadcastTo ⟨2, ![M, N]⟩ (shapeCast ⟨2, ![1, N]⟩ b hc) hb) (ix2 p c)
      = (∑ k : Fin K, L (ix2 p k) * R (ix2 k c)) + b (ix1 c) := by
  rw [Cert.Lib.DenseLayer.layer_apply D hr hs hl0 hl1 hr0 hr1 L R _ hb p c, shapeCast_a_1a_apply]

/-- The same under `math.tanh`: a hidden unit. -/
theorem tanh_layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    tanh (addf (matmul D none L R (constant (F := Ideal) ⟨2, ![M, N]⟩ .f32 0x00000000#32))
        (broadcastTo ⟨2, ![M, N]⟩ (shapeCast ⟨2, ![1, N]⟩ b hc) hb)) (ix2 p c)
      = Ideal.tanh ((∑ k : Fin K, L (ix2 p k) * R (ix2 k c)) + b (ix1 c)) :=
  congrArg Ideal.tanh (linear_apply D hr hs hl0 hl1 hr0 hr1 L R b hc hb p c)

/-- A read-out: a matmul `[M, K] × [K, 1]` into zero, plus two scalars `[1]` each cast to `[1, 1]` and broadcast
    down the column, the column cast to the vector `[M]`; read at `p`: the sum over the contracted coordinate of left
    `(p, k)` times right `(k, 0)`, plus the first scalar, plus the second. -/
theorem readout_apply {M K : ℕ} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    {φ₁ φ₂ : FTy} (L : FVec Ideal ⟨2, ![M, K]⟩ φ₁) (R : FVec Ideal ⟨2, ![K, 1]⟩ φ₂)
    (b s : FVec Ideal ⟨1, ![1]⟩ .f32) (hc : (⟨1, ![1]⟩ : Shape).ShapeCasts ⟨2, ![1, 1]⟩)
    (hb : (⟨2, ![1, 1]⟩ : Shape).Broadcasts ⟨2, ![M, 1]⟩) (hv : (⟨2, ![M, 1]⟩ : Shape).ShapeCasts ⟨1, ![M]⟩)
    (p : Fin M) :
    shapeCast ⟨1, ![M]⟩ (addf (addf (matmul D none L R (constant (F := Ideal) ⟨2, ![M, 1]⟩ .f32 0x00000000#32))
        (broadcastTo ⟨2, ![M, 1]⟩ (shapeCast ⟨2, ![1, 1]⟩ b hc) hb))
        (broadcastTo ⟨2, ![M, 1]⟩ (shapeCast ⟨2, ![1, 1]⟩ s hc) hb)) hv (ix1 p)
      = (∑ k : Fin K, L (ix2 p k) * R (ix2 k (0 : Fin 1))) + b (ix1 (0 : Fin 1)) + s (ix1 (0 : Fin 1)) := by
  rw [shapeCast_a1_a_apply, addf_apply, linear_apply D hr hs hl0 hl1 hr0 hr1 L R b hc hb p 0,
    broadcastTo_1b_ab_apply, shapeCast_a_1a_apply]

end Cert.Lib.MlpLayers

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«116715_j20512763806336_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibColumnSpread.lean ====
/-
  One column spread over many.

  A kernel that keeps a per-row scalar as a column `[a, 1]` and multiplies a whole `[a, b]` block by it
  broadcasts the column along the second axis. Read at `(p, c)` the broadcast is the column's entry of row `p`,
  whatever the column `c`. (The library has the row form `[1, b] → [a, b]`; this is the column form.)
  Imports only the Idealize library.
-/
import Idealize.ShloMosaic.Lib.Pipeline.Value
import Idealize.ShloMosaic.Lib.ValueIdx

noncomputable section

namespace Cert.Lib.ColumnSpread

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnSpread

end
-- ==== Proof.Body0.lean ====
/-
  The first region's body, read at an entry, at the exact values.

  Over one tile of 5000 nodes the body forms, for node p and hidden unit j,
      h (p, j) = max (sum_k (agg (p, k) * inv (p, 0)) * WlT (k, j) + bl (j) + sum_k x (p, k) * WrT (k, j)) 0
  (two products into zero accumulators, a bias vector spread over the rows, a rectifier; the roundings to a
  shorter float format are the identity on the extended reals), stores it, and stores its product with a third
  weight matrix:  proj (p, o) = sum_j h (p, j) * Wl2T (j, o).
-/
import proofs.«116715_j20512763806336_2_alg».proof.Proof.Gen.KernelIdeal.Skeleton
import proofs.«116715_j20512763806336_2_alg».proof.Proof.LibMlpLayers
import proofs.«116715_j20512763806336_2_alg».proof.Proof.LibMatProd
import proofs.«116715_j20512763806336_2_alg».proof.Proof.LibColumnSpread
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two contraction records: rows times columns -/

abbrev D128 : DotDims S5000x128 S128x128 S5000x128 := dot_S5000x128_S128x128_S5000x128_1_0_0_1_n_n
abbrev D64 : DotDims S5000x128 S128x64 S5000x64 := dot_S5000x128_S128x64_S5000x64_1_0_0_1_n_n

theorem d128_l0 (j : S5000x128.Idx) (q : D128.contr.Idx) : (D128.lhsIdx j q 0).val = (j 0).val := by
  unfold DotDims.lhsIdx
  rw [dif_neg (show ¬(0 : Fin S5000x128.rank) ∈ D128.lhsBatch by decide),
    dif_pos (show (0 : Fin S5000x128.rank) ∈ D128.lhsNonContracting by decide)]
  rfl
theorem d128_l1 (j : S5000x128.Idx) (q : D128.contr.Idx) : (D128.lhsIdx j q 1).val = (q ⟨0, by decide⟩).val :=
  D128.lhsIdx_val_of_single rfl j q
theorem d128_r0 (j : S5000x128.Idx) (q : D128.contr.Idx) : (D128.rhsIdx j q 0).val = (q ⟨0, by decide⟩).val :=
  D128.rhsIdx_val_of_single rfl j q
theorem d128_r1 (j : S5000x128.Idx) (q : D128.contr.Idx) : (D128.rhsIdx j q 1).val = (j 1).val := by
  unfold DotDims.rhsIdx
  rw [dif_neg (show ¬(1 : Fin S128x128.rank) ∈ D128.rhsBatch by decide),
    dif_pos (show (1 : Fin S128x128.rank) ∈ D128.rhsNonContracting by decide)]
  rfl

theorem d64_l0 (j : S5000x64.Idx) (q : D64.contr.Idx) : (D64.lhsIdx j q 0).val = (j 0).val := by
  unfold DotDims.lhsIdx
  rw [dif_neg (show ¬(0 : Fin S5000x128.rank) ∈ D64.lhsBatch by decide),
    dif_pos (show (0 : Fin S5000x128.rank) ∈ D64.lhsNonContracting by decide)]
  rfl
theorem d64_l1 (j : S5000x64.Idx) (q : D64.contr.Idx) : (D64.lhsIdx j q 1).val = (q ⟨0, by decide⟩).val :=
  D64.lhsIdx_val_of_single rfl j q
theorem d64_r0 (j : S5000x64.Idx) (q : D64.contr.Idx) : (D64.rhsIdx j q 0).val = (q ⟨0, by decide⟩).val :=
  D64.rhsIdx_val_of_single rfl j q
theorem d64_r1 (j : S5000x64.Idx) (q : D64.contr.Idx) : (D64.rhsIdx j q 1).val = (j 1).val := by
  unfold DotDims.rhsIdx
  rw [dif_neg (show ¬(1 : Fin S128x64.rank) ∈ D64.rhsBatch by decide),
    dif_pos (show (1 : Fin S128x64.rank) ∈ D64.rhsNonContracting by decide)]
  rfl

/-! ## The hidden layer's tile -/

/-- The mean's entry: the aggregated feature times the node's reciprocal count, as the body forms it. -/
theorem mean_apply (v0 : Vec Ideal S5000x128 .f32) (v2 : Vec Ideal S5000x1 .f32) (p : Fin 5000) (k : Fin 128) :
    (truncf .bf16 (mulf (shapeCast S5000x128 v0 shapeCasts_S5000x128_S5000x128)
      (broadcastTo S5000x128 (shapeCast S5000x1 v2 shapeCasts_S5000x1_S5000x1) broadcasts_S5000x1_S5000x128))
      bitsLt_bf16_f32 : FVec Ideal S5000x128 .bf16) (ix2 p k) = (v0 (ix2 p k) * v2 (ix2 p (0 : Fin 1)) : EReal) := by
  rw [truncf_apply, mulf_apply, shapeCast_self, shapeCast_self,
    Cert.Lib.ColumnSpread.broadcastTo_a1_ab_apply]

/-- The stored hidden tile at (p, j). -/
theorem pay1_apply (v0 : Vec Ideal S5000x128 .f32) (v2 : Vec Ideal S5000x1 .f32) (v7 : Vec Ideal S5000x128 .f32)
    (v9 v12 : Vec Ideal S128x128 .f32) (v16 : Vec Ideal S128 .f32) (p : Fin 5000) (j : Fin 128) :
    k0_pay1 (F := Ideal) v0 v2 v7 v9 v12 v16 (ix2 p j)
      = max ((∑ k : Fin 128, (v0 (ix2 p k) * v2 (ix2 p (0 : Fin 1))) * v9 (ix2 k j)) + v16 (ix1 j)
          + ∑ k : Fin 128, v7 (ix2 p k) * v12 (ix2 k j)) 0 := by
  unfold k0_pay1
  rw [maximumf_apply, addf_apply, broadcast_apply]
  refine congrArg₂ max (congrArg₂ (· + ·) ?_ ?_) Ideal.ofBits_zero_f32
  · refine (Cert.Lib.MlpLayers.linear_apply D128 rfl rfl d128_l0 d128_l1 d128_r0 d128_r1 _ _ v16
      shapeCasts_S128_S1x128 broadcasts_S1x128_S5000x128 p j).trans ?_
    refine congrArg (· + v16 (ix1 j)) (Finset.sum_congr rfl fun k _ => ?_)
    rw [mean_apply, truncf_apply, shapeCast_self]
  · refine (congrFun (Cert.Lib.MatProd.matmul_zero_eq_prod D128 rfl rfl d128_l0 d128_l1 d128_r0 d128_r1 none _ _)
      (ix2 p j)).trans ?_
    rw [Cert.Lib.MatProd.prod_apply]
    refine Finset.sum_congr rfl fun k _ => ?_
    rw [truncf_apply, truncf_apply, shapeCast_self]

/-- The stored projection tile at (p, o): the hidden tile's row times the third weight matrix's column. -/
theorem pay2_apply (v0 : Vec Ideal S5000x128 .f32) (v2 : Vec Ideal S5000x1 .f32) (v7 : Vec Ideal S5000x128 .f32)
    (v9 v12 : Vec Ideal S128x128 .f32) (v16 : Vec Ideal S128 .f32) (v25 : Vec Ideal S128x64 .f32)
    (p : Fin 5000) (o : Fin 64) :
    k0_pay2 (F := Ideal) v0 v2 v7 v9 v12 v16 v25 (ix2 p o)
      = ∑ j : Fin 128, k0_pay1 (F := Ideal) v0 v2 v7 v9 v12 v16 (ix2 p j) * v25 (ix2 j o) := by
  unfold k0_pay2
  refine (congrFun (Cert.Lib.MatProd.matmul_zero_eq_prod D64 rfl rfl d64_l0 d64_l1 d64_r0 d64_r1 none _ _)
    (ix2 p o)).trans ?_
  rw [Cert.Lib.MatProd.prod_apply]
  refine Finset.sum_congr rfl fun j _ => ?_
  rw [truncf_apply, truncf_apply, shapeCast_self]

end Cert.KernelIdeal.Body

end
-- ==== Proof.Arr0.lean ====
/-
  The first region's two result arrays as whole-array functions of the arrays the region finds.

  The grid has ten points; point t stages rows 5000 t ... 5000 t + 4999 of the three node-indexed inputs (the
  aggregated features, the reciprocal counts, the node features) and all of the four weight inputs, and writes back
  rows 5000 t ... of both results. A result's row n therefore depends on row n of the node-indexed inputs only, and
  the ten row tiles cover the 50000 rows: the arrays end holding hid and proj below at every index.
-/
import proofs.«116715_j20512763806336_2_alg».proof.Proof.Gen.KernelIdeal.Frame
import proofs.«116715_j20512763806336_2_alg».proof.Proof.Body0

set_option maxRecDepth 16384

noncomputable section

open scoped BigOperators

namespace Cert.KernelIdeal.Arr

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## The whole-array functions -/

/-- The hidden layer at node n, unit j, from the arrays the region finds. -/
def hid (a0 : S50000x128.Idx → EReal) (a1 : S50000x1.Idx → EReal) (a2 : S50000x128.Idx → EReal)
    (a3 : S128x128.Idx → EReal) (a4 : S128.Idx → EReal) (a5 : S128x128.Idx → EReal) (n : Fin 50000) (j : Fin 128) : EReal :=
  max ((∑ k : Fin 128, (a0 (ix2 n k) * a1 (ix2 n (0 : Fin 1))) * a3 (ix2 k j)) + a4 (ix1 j)
    + ∑ k : Fin 128, a2 (ix2 n k) * a5 (ix2 k j)) 0

/-- The same as an array. -/
def Hid (a0 : S50000x128.Idx → EReal) (a1 : S50000x1.Idx → EReal) (a2 : S50000x128.Idx → EReal)
    (a3 : S128x128.Idx → EReal) (a4 : S128.Idx → EReal) (a5 : S128x128.Idx → EReal) : S50000x128.Idx → EReal :=
  fun i => hid a0 a1 a2 a3 a4 a5 ⟨(i 0).val, idx2_lt0 i⟩ ⟨(i 1).val, idx2_lt1 i⟩

/-- The projected hidden layer as an array. -/
def Proj (a0 : S50000x128.Idx → EReal) (a1 : S50000x1.Idx → EReal) (a2 : S50000x128.Idx → EReal)
    (a3 : S128x128.Idx → EReal) (a4 : S128.Idx → EReal) (a5 : S128x128.Idx → EReal) (a6 : S128x64.Idx → EReal) :
    S50000x64.Idx → EReal :=
  fun i => ∑ j : Fin 128, hid a0 a1 a2 a3 a4 a5 ⟨(i 0).val, idx2_lt0 i⟩ j * a6 (ix2 j ⟨(i 1).val, idx2_lt1 i⟩)

theorem Hid_ix2 (a0 a1 a2 a3 a4 a5) (n : Fin 50000) (j : Fin 128) :
    Hid a0 a1 a2 a3 a4 a5 (ix2 n j) = hid a0 a1 a2 a3 a4 a5 n j := rfl
theorem Proj_ix2 (a0 a1 a2 a3 a4 a5 a6) (n : Fin 50000) (o : Fin 64) :
    Proj a0 a1 a2 a3 a4 a5 a6 (ix2 n o) = ∑ j : Fin 128, hid a0 a1 a2 a3 a4 a5 n j * a6 (ix2 j o) := rfl

/-! ## The printed index maps over the grid -/

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 10 := by
  have h := t.isLt
  have hN : cfg0.N = 10 := N_0
  omega

/-- The node that row p of tile t is. -/
def row (t : Fin cfg0.N) (p : Fin 5000) : Fin 50000 :=
  ⟨t.val * 5000 + p.val, by have := t_lt t; have := p.isLt; omega⟩

section
variable (V : (c : Dev nD) → (b : Ref sig .tc) → Buf (Elt Ideal) ((c : Thread nD τ).loc b))

/-! ## Each input block as rows of its array -/

theorem rd0 (c : Dev nD) (t : Fin cfg0.N) (p : Fin 5000) (k : Fin 128) :
    (iblk0 V c 0 t : Vec Ideal S5000x128 .f32) (ix2 p k) = (V c main_v22 : S50000x128.Idx → EReal) (ix2 (row t p) k) := by
  obtain ⟨e0, e1, -⟩ := idx0 t
  show (V c main_v22 : S50000x128.Idx → EReal) (((cfg0.win 0).blk t).view.emb (ix2 p k)) = _
  refine congrArg (V c main_v22 : S50000x128.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem rd1 (c : Dev nD) (t : Fin cfg0.N) (p : Fin 5000) :
    (iblk0 V c 1 t : Vec Ideal S5000x1 .f32) (ix2 p (0 : Fin 1)) = (V c main_v12 : S50000x1.Idx → EReal) (ix2 (row t p) (0 : Fin 1)) := by
  obtain ⟨-, -, e0, e1, -⟩ := idx0 t
  show (V c main_v12 : S50000x1.Idx → EReal) (((cfg0.win 1).blk t).view.emb (ix2 p (0 : Fin 1))) = _
  refine congrArg (V c main_v12 : S50000x1.Idx → EReal) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

theorem rd2 (c : Dev nD) (t : Fin cfg0.N) (p : Fin 5000) (k : Fin 128) :
    (iblk0 V c 2 t : Vec Ideal S5000x128 .f32) (ix2 p k) = (V c main_arg0 : S50000x128.Idx → EReal) (ix2 (row t p) k) := by
  obtain ⟨-, -, -, -, e0, e1, -⟩ := idx0 t
  show (V c main_arg0 : S50000x128.Idx → EReal) (((cfg0.win 2).blk t).view.emb (ix2 p k)) = _
  refine congrArg (V c main_arg0 : S50000x128.Idx → EReal) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega

theorem rd3 (c : Dev nD) (t : Fin cfg0.N) (k j : Fin 128) :
    (iblk0 V c 3 t : Vec Ideal S128x128 .f32) (ix2 k j) = (V c main_v23 : S128x128.Idx → EReal) (ix2 k j) := by
  obtain ⟨-, -, -, -, -, -, e0, e1, -⟩ := idx0 t
  show (V c main_v23 : S128x128.Idx → EReal) (((cfg0.win 3).blk t).view.emb (ix2 k j)) = _
  refine congrArg (V c main_v23 : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem rd4 (c : Dev nD) (t : Fin cfg0.N) (j : Fin 128) :
    (iblk0 V c 4 t : Vec Ideal S128 .f32) (ix1 j) = (V c main_arg3 : S128.Idx → EReal) (ix1 j) := by
  obtain ⟨-, -, -, -, -, -, -, -, e0, -⟩ := idx0 t
  show (V c main_arg3 : S128.Idx → EReal) (((cfg0.win 4).blk t).view.emb (ix1 j)) = _
  refine congrArg (V c main_arg3 : S128.Idx → EReal) (funext fun a => Fin.ext ?_)
  match a with
  | ⟨0, _⟩ => show win0_4.index t (0 : Fin 1) * 128 + 1 * j.val = j.val; rw [e0]; omega

theorem rd5 (c : Dev nD) (t : Fin cfg0.N) (k j : Fin 128) :
    (iblk0 V c 5 t : Vec Ideal S128x128 .f32) (ix2 k j) = (V c main_v24 : S128x128.Idx → EReal) (ix2 k j) := by
  obtain ⟨-, -, -, -, -, -, -, -, -, e0, e1, -⟩ := idx0 t
  show (V c main_v24 : S128x128.Idx → EReal) (((cfg0.win 5).blk t).view.emb (ix2 k j)) = _
  refine congrArg (V c main_v24 : S128x128.Idx → EReal) (funext fun a => Fin.ext ?_)
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem rd6 (c : Dev nD) (t : Fin cfg0.N) (j : Fin 128) (o : Fin 64) :
    (iblk0 V c 6 t : Vec Ideal S128x64 .f32) (ix2 j o) = (V c main_v25 : S128x64.Idx → EReal) (ix2 j o) := by
  obtain ⟨-, -, -, -, -, -, -, -, -, -, -, e0, e1, -⟩ := idx0 t
  show (V c main_v25 : S128x64.Idx → EReal) (((cfg0.win 6).blk t).view.emb (ix2 j o)) = _
  refine congrArg (V c main_v25 : S128x64.Idx → EReal) (funext fun a => Fin.ext ?_)
  match a with
  | ⟨0, _⟩ => show win0_6.index t (0 : Fin 2) * 128 + 1 * j.val = j.val; rw [e0]; omega
  | ⟨1, _⟩ => show win0_6.index t (1 : Fin 2) * 64 + 1 * o.val = o.val; rw [e1]; omega

/-- The stored hidden tile of point t at (p, j) is the hidden layer at node (row t p). -/
theorem tile_hid (c : Dev nD) (t : Fin cfg0.N) (p : Fin 5000) (j : Fin 128) :
    k0_pay1 (F := Ideal) (iblk0 V c 0 t) (iblk0 V c 1 t) (iblk0 V c 2 t) (iblk0 V c 3 t) (iblk0 V c 5 t) (iblk0 V c 4 t) (ix2 p j)
      = hid (V c main_v22) (V c main_v12) (V c main_arg0) (V c main_v23) (V c main_arg3) (V c main_v24) (row t p) j := by
  refine (pay1_apply (iblk0 V c 0 t) (iblk0 V c 1 t) (iblk0 V c 2 t) (iblk0 V c 3 t) (iblk0 V c 5 t) (iblk0 V c 4 t) p j).trans ?_
  unfold hid
  rw [rd1 V c t p, rd4 V c t j]
  refine congrArg₂ (fun a b => max (a + (V c main_arg3 : S128.Idx → EReal) (ix1 j) + b) 0)
    (Finset.sum_congr rfl fun k _ => ?_) (Finset.sum_congr rfl fun k _ => ?_)
  · rw [rd0 V c t p k, rd3 V c t k j]
  · rw [rd2 V c t p k, rd5 V c t k j]

/-- The stored projection tile of point t at (p, o). -/
theorem tile_proj (c : Dev nD) (t : Fin cfg0.N) (p : Fin 5000) (o : Fin 64) :
    k0_pay2 (F := Ideal) (iblk0 V c 0 t) (iblk0 V c 1 t) (iblk0 V c 2 t) (iblk0 V c 3 t) (iblk0 V c 5 t) (iblk0 V c 4 t) (iblk0 V c 6 t) (ix2 p o)
      = ∑ j : Fin 128, hid (V c main_v22) (V c main_v12) (V c main_arg0) (V c main_v23) (V c main_arg3) (V c main_v24) (row t p) j
          * (V c main_v25 : S128x64.Idx → EReal) (ix2 j o) := by
  refine (pay2_apply (iblk0 V c 0 t) (iblk0 V c 1 t) (iblk0 V c 2 t) (iblk0 V c 3 t) (iblk0 V c 5 t) (iblk0 V c 4 t) (iblk0 V c 6 t) p o).trans ?_
  refine Finset.sum_congr rfl fun j _ => ?_
  rw [tile_hid V c t p j, rd6 V c t j o]

/-! ## What a point writes back, and the arrays after the run -/

theorem emb7 (t : Fin cfg0.N) (p : Fin 5000) (j : Fin 128) :
    ((cfg0.win 7).blk t).view.emb (ix2 p j) = (ix2 (row t p) j : S50000x128.Idx) := by
  obtain ⟨-, -, -, -, -, -, -, -, -, -, -, -, -, e0, e1, -⟩ := idx0 t
  funext a; apply Fin.ext
  match a with
  | ⟨0, _⟩ => show win0_7.index t (0 : Fin 2) * 5000 + 1 * p.val = t.val * 5000 + p.val; rw [e0]; omega
  | ⟨1, _⟩ => show win0_7.index t (1 : Fin 2) * 128 + 1 * j.val = j.val; rw [e1]; omega

theorem emb8 (t : Fin cfg0.N) (p : Fin 5000) (o : Fin 64) :
    ((cfg0.win 8).blk t).view.emb (ix2 p o) = (ix2 (row t p) o : S50000x64.Idx) := by
  obtain ⟨-, -, -, -, -, -, -, -, -, -, -, -, -, -, -, e0, e1⟩ := idx0 t
  funext a; apply Fin.ext
  match a with
  | ⟨0, _⟩ => show win0_8.index t (0 : Fin 2) * 5000 + 1 * p.val = t.val * 5000 + p.val; rw [e0]; omega
  | ⟨1, _⟩ => show win0_8.index t (1 : Fin 2) * 64 + 1 * o.val = o.val; rw [e1]; omega

/-- Point t writes back rows 5000 t ... of the hidden layer. -/
theorem flushed7 (c : Dev nD) (t : Fin cfg0.N) :
    (dat0 V c).flushed 7 t = ((cfg0.win 7).blk t).view.read (Elt Ideal)
      (Hid (V c main_v22) (V c main_v12) (V c main_arg0) (V c main_v23) (V c main_arg3) (V c main_v24)) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S5000x1) hz2,
    View.ld_unit_zero (S := S128x128) hz2, View.ld_unit_zero (S := S128) hz1]
  funext y
  obtain ⟨p, j, rfl⟩ : ∃ (p : Fin 5000) (j : Fin 128), y = ix2 p j := ⟨y 0, y 1, eq_ix2 y⟩
  show k0_pay1 (F := Ideal) (iblk0 V c 0 t) (iblk0 V c 1 t) (iblk0 V c 2 t) (iblk0 V c 3 t) (iblk0 V c 5 t) (iblk0 V c 4 t) (ix2 p j)
    = Hid (V c main_v22) (V c main_v12) (V c main_arg0) (V c main_v23) (V c main_arg3) (V c main_v24)
        (((cfg0.win 7).blk t).view.emb (ix2 p j))
  rw [emb7 t p j, Hid_ix2]
  exact tile_hid V c t p j

/-- Point t writes back rows 5000 t ... of the projection. -/
theorem flushed8 (c : Dev nD) (t : Fin cfg0.N) :
    (dat0 V c).flushed 8 t = ((cfg0.win 8).blk t).view.read (Elt Ideal)
      (Proj (V c main_v22) (V c main_v12) (V c main_arg0) (V c main_v23) (V c main_arg3) (V c main_v24) (V c main_v25)) := by
  show (cfg0.win 8).cut (grid0.coords t) ((dat0 V c).after 8 t) = _
  rw [after0_8]
  unfold out0_8
  rw [View.canon_unit_zero hz2]
  simp only [View.ld_unit_zero (S := S5000x128) hz2, View.ld_unit_zero (S := S5000x1) hz2,
    View.ld_unit_zero (S := S128x128) hz2, View.ld_unit_zero (S := S128) hz1, View.ld_unit_zero (S := S128x64) hz2]
  funext y
  obtain ⟨p, o, rfl⟩ : ∃ (p : Fin 5000) (o : Fin 64), y = ix2 p o := ⟨y 0, y 1, eq_ix2 y⟩
  show k0_pay2 (F := Ideal) (iblk0 V c 0 t) (iblk0 V c 1 t) (iblk0 V c 2 t) (iblk0 V c 3 t) (iblk0 V c 5 t) (iblk0 V c 4 t) (iblk0 V c 6 t) (ix2 p o)
    = Proj (V c main_v22) (V c main_v12) (V c main_arg0) (V c main_v23) (V c main_arg3) (V c main_v24) (V c main_v25)
        (((cfg0.win 8).blk t).view.emb (ix2 p o))
  rw [emb8 t p o, Proj_ix2]
  exact tile_proj V c t p o

theorem mem_blk7 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v26_0).slice (win0_7.rect t)).set ↔ _
  rw [View.set_slice_whole, Rect.mem_set_unit]
  exact Iff.rfl

theorem mem_blk8 (t : Fin cfg0.N) (i : S50000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v26_1).slice (win0_8.rect t)).set ↔ _
  rw [View.set_slice_whole, Rect.mem_set_unit]
  exact Iff.rfl

/-- Row n lies in the tile of point n / 5000. -/
theorem cover7 (i : S50000x128.Idx) :
    ∃ t : Fin cfg0.N, (cfg0.win 7).flush t = true ∧ i ∈ ((cfg0.win 7).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, -, -, -, e0, e1, -⟩ := idx0 t
  refine ⟨t, flush0_7 t, ?_⟩
  rw [mem_blk7]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

theorem cover8 (i : S50000x64.Idx) :
    ∃ t : Fin cfg0.N, (cfg0.win 8).flush t = true ∧ i ∈ ((cfg0.win 8).blk t).view.set := by
  have hi0 : (i 0).val < 50000 := idx2_lt0 i
  have hi1 : (i 1).val < 64 := idx2_lt1 i
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, -, -, -, -, -, e0, e1⟩ := idx0 t
  refine ⟨t, flush0_8 t, ?_⟩
  rw [mem_blk8]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 64 ≤ (i 1).val ∧ (i 1).val < win0_8.index t (1 : Fin 2) * 64 + 64
    rw [e1]; omega

/-- THE HIDDEN LAYER'S ARRAY after the region. -/
theorem final7 (c : Dev nD) : (dat0 V c).arrAt 7 cfg0.N
    = Hid (V c main_v22) (V c main_v12) (V c main_arg0) (V c main_v23) (V c main_arg3) (V c main_v24) :=
  (dat0 V c).arrAt_eq_of_cover 7 _ (fun t _ => flushed7 V c t) cover7

/-- THE PROJECTION'S ARRAY after the region. -/
theorem final8 (c : Dev nD) : (dat0 V c).arrAt 8 cfg0.N
    = Proj (V c main_v22) (V c main_v12) (V c main_arg0) (V c main_v23) (V c main_arg3) (V c main_v24) (V c main_v25) :=
  (dat0 V c).arrAt_eq_of_cover 8 _ (fun t _ => flushed8 V c t) cover8

end

end Cert.KernelIdeal.Arr

end
-- ==== Proof.LibSegLinear.lean ====
/-
  A linear map commutes with a weighted segment sum — for finite data.

  Over finitely many edges `e` and features `k`, with an indicator `p e` (edge `e` lands in the segment), a row
  `A e k` per edge, an edge weight `w e` and one column `W k` of a matrix:

      ∑_e [p e] (∑_k A e k · W k) · w e  =  ∑_k (∑_e [p e] A e k · w e) · W k.

  Applying the matrix before the gather-scale-scatter or after it gives the same entry. On the extended reals the
  identity needs every `A e k`, `w e`, `W k` to be a real number: it distributes a product over a sum and exchanges
  two sums, which fail at infinities (`seg_linear`; over ℝ it is `seg_linear_real`). Imports only Mathlib.
-/
import Mathlib.Data.EReal.Operations
import Mathlib.Algebra.BigOperators.Ring.Finset
import Mathlib.Algebra.BigOperators.Group.Finset.Sigma
import Mathlib.Tactic.Ring

open scoped BigOperators

namespace Cert.Lib.SegLinear

variable {ι κ : Type*} [Fintype ι] [Fintype κ]

/-- The law over the reals. -/
theorem seg_linear_real (p : ι → Prop) [DecidablePred p] (a : ι → κ → ℝ) (w : ι → ℝ) (W : κ → ℝ) :
    ∑ e, (if p e then (∑ k, a e k * W k) * w e else 0) = ∑ k, (∑ e, if p e then a e k * w e else 0) * W k := by
  simp only [Finset.sum_mul]
  rw [Finset.sum_comm]
  refine Finset.sum_congr rfl fun e _ => ?_
  by_cases h : p e
  · simp only [h, if_true]
    exact Finset.sum_congr rfl fun k _ => by ring
  · simp only [h, if_false, zero_mul, Finset.sum_const_zero]

/-- The inclusion of the reals in the extended reals carries a finite sum to the sum. -/
theorem coe_sum {α : Type*} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- … and an indicator to the indicator. -/
theorem coe_ite (p : Prop) [Decidable p] (x : ℝ) : ((if p then x else 0 : ℝ) : EReal) = if p then (x : EReal) else 0 := by
  split_ifs <;> simp

/-- THE LAW on the extended reals, for data that are real numbers. -/
theorem seg_linear (p : ι → Prop) [DecidablePred p] (A : ι → κ → EReal) (w : ι → EReal) (W : κ → EReal)
    (hA : ∀ e k, ∃ r : ℝ, A e k = (r : EReal)) (hw : ∀ e, ∃ r : ℝ, w e = (r : EReal))
    (hW : ∀ k, ∃ r : ℝ, W k = (r : EReal)) :
    ∑ e, (if p e then (∑ k, A e k * W k) * w e else 0) = ∑ k, (∑ e, if p e then A e k * w e else 0) * W k := by
  choose a ha using hA
  choose w' hw using hw
  choose W' hW using hW
  have L : ∀ e, (if p e then (∑ k, A e k * W k) * w e else 0)
      = ((if p e then (∑ k, a e k * W' k) * w' e else 0 : ℝ) : EReal) := by
    intro e
    rw [coe_ite, EReal.coe_mul, coe_sum]
    simp only [EReal.coe_mul, ha, hw, hW]
  have R : ∀ k, (∑ e, if p e then A e k * w e else 0) * W k
      = (((∑ e, if p e then a e k * w' e else 0) * W' k : ℝ) : EReal) := by
    intro k
    rw [EReal.coe_mul, coe_sum]
    simp only [coe_ite, EReal.coe_mul, ha, hw, hW]
  simp only [L, R, ← coe_sum]
  exact congrArg _ (seg_linear_real p a w' W')

end Cert.Lib.SegLinear
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.LibGcnLayer.lean ====
/-
  One graph-convolution layer, the weight matrix applied after the edges or before them.

  Over `N` nodes with `A` features, `E` edges, a weight matrix `W : [A, C]`, edge weights `ν e`, a start word per
  edge for the row it reads (`ρ e`, clamped into the table) and one for the row it is added to:

      after  :  (n, c) ↦ ∑_k (∑_e [e ends at n] x (ρ e, k) · ν e) · W (k, c) + β (n, c)
      before :  (n, c) ↦ ∑_e [e ends at n] (∑_k x (ρ e, k) · W (k, c)) · ν e + β (n, c)

  The two agree when `x`, `W` and `ν` are real numbers (the law distributes a product over a sum and exchanges two
  sums, which fail at infinities), and the value is then a real number when `β` is. The gather, scatter and
  contraction records enter through their dimension numbers only, so the lemma serves both layers of both programs.
-/
import Idealize.ShloMosaic.PureOps.Ideal.Laws
import Idealize.ShloMosaic.Lib.ValueIdx
import proofs.«116715_j20512763806336_2_alg».proof.Proof.LibRowGatherScatter
import proofs.«116715_j20512763806336_2_alg».proof.Proof.LibSegLinear
import proofs.«116715_j20512763806336_2_alg».proof.Proof.LibMatProd
import proofs.«116715_j20512763806336_2_alg».proof.Proof.LibDenseLayer

noncomputable section

open scoped BigOperators

namespace Cert.Gcn

open Idealize.ShloMosaic Idealize.ShloMosaic.ValueIdx
open Cert.Lib.RowGatherScatter (startAt rowOf gather_rows_apply hostScatterAdd_rows_apply)
open Cert.Lib.MatProd (prod prod_apply)

/-! ## Real numbers among the extended reals -/

/-- An extended real that is a real number. -/
def IsR (x : EReal) : Prop := ∃ r : ℝ, x = (r : EReal)

theorem isR_zero : IsR 0 := ⟨0, EReal.coe_zero.symm⟩
theorem isR_coe (r : ℝ) : IsR (r : EReal) := ⟨r, rfl⟩
theorem isR_add {x y : EReal} : IsR x → IsR y → IsR (x + y)
  | ⟨a, ha⟩, ⟨b, hb⟩ => ⟨a + b, by rw [ha, hb, EReal.coe_add]⟩
theorem isR_mul {x y : EReal} : IsR x → IsR y → IsR (x * y)
  | ⟨a, ha⟩, ⟨b, hb⟩ => ⟨a * b, by rw [ha, hb, EReal.coe_mul]⟩
theorem isR_ite {p : Prop} [Decidable p] {x y : EReal} (hx : IsR x) (hy : IsR y) : IsR (if p then x else y) := by
  split_ifs <;> assumption
theorem isR_sum {ι : Type*} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact isR_add (h i (Finset.mem_insert_self _ _)) (ih fun j hj => h j (Finset.mem_insert_of_mem hj))

/-! ## Real numbers through the operations

  Each over ANY shape, and phrased with the operation as a program prints it, so that a use at a program's literal
  extents matches by the operation's name and nothing is unfolded there. -/

section Ops

variable {s si su : Shape}

/-- A scatter-add of real updates into a real table: each entry is the table's plus a sum of updates. -/
theorem scatterAdd_isR (d : ScatterDims s si su) {w : ℕ} (x : FVec Ideal s .f32) (idx : IVec si w) (upd : FVec Ideal su .f32)
    (hx : ∀ i, IsR (x i)) (hu : ∀ j, IsR (upd j)) (i : s.Idx) : IsR (Host.scatterAdd d x idx upd i) := by
  show IsR (Ideal.hostScatterAdd d x idx upd i)
  unfold Ideal.hostScatterAdd
  exact isR_add (hx i) (isR_sum _ _ fun j _ => hu j)

/-- A gather reads the table at some index. -/
theorem gather_isR {t : Shape} (g : GatherDims s si t) {w : ℕ} (x : FVec Ideal s .f32) (idx : IVec si w)
    (hx : ∀ i, IsR (x i)) (j : t.Idx) : IsR (Host.gather g x idx j) := hx _

theorem mulf_isR (a b : FVec Ideal s .f32) (ha : ∀ i, IsR (a i)) (hb : ∀ i, IsR (b i)) (i : s.Idx) : IsR (mulf a b i) :=
  isR_mul (ha i) (hb i)

theorem addf_isR (a b : FVec Ideal s .f32) (ha : ∀ i, IsR (a i)) (hb : ∀ i, IsR (b i)) (i : s.Idx) : IsR (addf a b i) :=
  isR_add (ha i) (hb i)

/-- The reciprocal square root of a positive real number is a real number. -/
theorem rsqrt_pos_isR (r : ℝ) (h : 0 < r) : IsR (Ideal.rsqrt (r : EReal)) := by
  have e : Ideal.rsqrt (r : EReal) = if r < 0 then ⊥ else if r = 0 then ⊤ else (((Real.sqrt r)⁻¹ : ℝ) : EReal) := rfl
  rw [e, if_neg (not_lt.mpr h.le), if_neg h.ne']
  exact isR_coe _

/-- `1 / sqrt d` where `d > 0`, zero elsewhere, of real `d`: the guard keeps the reciprocal square root off zero,
    where it is infinite. -/
theorem guarded_rsqrt_isR (d z : FVec Ideal s .f32) (hd : ∀ i, IsR (d i)) (hz : ∀ i, z i = 0) (i : s.Idx) :
    IsR (select (cmpf .ogt d z) (Host.rsqrt d) z i) := by
  obtain ⟨r, hr⟩ := hd i
  show IsR (Scalar.select (Ideal.cmp .ogt (d i) (z i)) (Ideal.rsqrt (d i)) (z i))
  rw [hr, hz]
  unfold Scalar.select
  split_ifs with hc
  · have hpos : (0 : EReal) < (r : EReal) := by
      by_contra hn
      have h0 : Ideal.cmp .ogt (r : EReal) 0 = 0 := by simp [Ideal.cmp, hn]
      rw [h0] at hc
      exact absurd hc (by decide)
    exact rsqrt_pos_isR r (EReal.coe_pos.mp hpos)
  · exact isR_zero

/-- `h` where `h ≥ 0`, `t · h` elsewhere, of real `h` and `t`. -/
theorem slope_isR (h z t : FVec Ideal s .f32) (hh : ∀ i, IsR (h i)) (ht : ∀ i, IsR (t i)) (i : s.Idx) :
    IsR (select (cmpf .oge h z) h (mulf t h) i) := by
  show IsR (Scalar.select (Ideal.cmp .oge (h i) (z i)) (h i) (t i * h i))
  unfold Scalar.select
  split_ifs
  · exact hh i
  · exact isR_mul (ht i) (hh i)

/-- A real bias vector repeated over the rows is real everywhere. -/
theorem bias_isR {M N : ℕ} (hN : N ≠ 1) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (hb : ∀ i, IsR (b i)) (i) :
    IsR (broadcastInDim ⟨2, ![M, N]⟩ ![0, 1] h2 (broadcastInDim ⟨2, ![1, N]⟩ ![1] h1 b) i) := by
  obtain ⟨r, k, rfl⟩ : ∃ (r : Fin M) (k : Fin N), i = ix2 r k := ⟨i 0, i 1, eq_ix2 i⟩
  rw [Cert.Lib.DenseLayer.bias_apply hN]
  exact hb _

end Ops

/-! ## The records' dimension numbers -/

/-- A gather of whole rows of an `[N, C]` table, one start word per result row. -/
structure RowGather {N E C : ℕ} (g : GatherDims ⟨2, ![N, C]⟩ ⟨2, ![E, 1]⟩ ⟨2, ![E, C]⟩) : Prop where
  ho : g.offsetDims = [1]
  hc : g.collapsedSliceDims = [0]
  hob : g.operandBatchingDims = []
  hsb : g.startIndicesBatchingDims = []
  hm : g.startIndexMap = [0]
  hv : g.indexVectorDim = 1
  hs : g.sliceSizes = ![1, C]

/-- A scatter of whole rows into an `[N, C]` table, one start word per update row. -/
structure RowScatter {N E C : ℕ} (d : ScatterDims ⟨2, ![N, C]⟩ ⟨2, ![E, 1]⟩ ⟨2, ![E, C]⟩) : Prop where
  h1 : d.updateWindowDims = [1]
  h2 : d.insertedWindowDims = [0]
  h3 : d.scatterDimsToOperandDims = [0]
  h4 : d.indexVectorDim = 1

variable {N E A C : ℕ}

/-! ## The layer -/

section Layer

variable (gA : GatherDims ⟨2, ![N, A]⟩ ⟨2, ![E, 1]⟩ ⟨2, ![E, A]⟩) (gC : GatherDims ⟨2, ![N, C]⟩ ⟨2, ![E, 1]⟩ ⟨2, ![E, C]⟩)
  (sA : ScatterDims ⟨2, ![N, A]⟩ ⟨2, ![E, 1]⟩ ⟨2, ![E, A]⟩) (sC : ScatterDims ⟨2, ![N, C]⟩ ⟨2, ![E, 1]⟩ ⟨2, ![E, C]⟩)
  (dK : DotDims ⟨2, ![N, A]⟩ ⟨2, ![A, C]⟩ ⟨2, ![N, C]⟩)

/-- The weights applied AFTER the edges are summed. -/
def after {w : ℕ} (idxS idxD : IVec ⟨2, ![E, 1]⟩ w) (x zA : FVec Ideal ⟨2, ![N, A]⟩ .f32) (nbA : FVec Ideal ⟨2, ![E, A]⟩ .f32)
    (W : FVec Ideal ⟨2, ![A, C]⟩ .f32) (bb : FVec Ideal ⟨2, ![N, C]⟩ .f32) : FVec Ideal ⟨2, ![N, C]⟩ .f32 :=
  addf (Host.dotGeneral dK none (Host.scatterAdd sA zA idxD (mulf (Host.gather gA x idxS) nbA)) W) bb

/-- The weights applied BEFORE the edges are summed. -/
def before {w : ℕ} (idxS idxD : IVec ⟨2, ![E, 1]⟩ w) (x : FVec Ideal ⟨2, ![N, A]⟩ .f32) (zC : FVec Ideal ⟨2, ![N, C]⟩ .f32)
    (nbC : FVec Ideal ⟨2, ![E, C]⟩ .f32) (W : FVec Ideal ⟨2, ![A, C]⟩ .f32) (bb : FVec Ideal ⟨2, ![N, C]⟩ .f32) :
    FVec Ideal ⟨2, ![N, C]⟩ .f32 :=
  addf (Host.scatterAdd sC zC idxD (mulf (Host.gather gC (Host.dotGeneral dK none x W) idxS) nbC)) bb

variable (hN : 0 < N) (hgA : RowGather gA) (hgC : RowGather gC) (hsA : RowScatter sA) (hsC : RowScatter sC)
  (hdot : ∀ (l : FVec Ideal ⟨2, ![N, A]⟩ .f32) (r : FVec Ideal ⟨2, ![A, C]⟩ .f32), Host.dotGeneral dK none l r = prod l r)
  {w : ℕ} (idxS idxD : IVec ⟨2, ![E, 1]⟩ w)
  (x zA : FVec Ideal ⟨2, ![N, A]⟩ .f32) (zC : FVec Ideal ⟨2, ![N, C]⟩ .f32)
  (nbA : FVec Ideal ⟨2, ![E, A]⟩ .f32) (nbC : FVec Ideal ⟨2, ![E, C]⟩ .f32)
  (W : FVec Ideal ⟨2, ![A, C]⟩ .f32) (bb : FVec Ideal ⟨2, ![N, C]⟩ .f32) (ν : Fin E → EReal)
  (hzA : ∀ i, zA i = 0) (hzC : ∀ i, zC i = 0)
  (hnA : ∀ e k, nbA (ix2 e k) = ν e) (hnC : ∀ e c, nbC (ix2 e c) = ν e)

include hN hgA hsA hdot hzA hnA in
/-- `after` at `(n, c)`. -/
theorem after_apply (n : Fin N) (c : Fin C) :
    after gA sA dK idxS idxD x zA nbA W bb (ix2 n c)
      = (∑ k : Fin A, (∑ e : Fin E, if (idxD (startAt e)).toInt = (n.val : ℤ) then x (ix2 (rowOf hN idxS e) k) * ν e else 0)
            * W (ix2 k c)) + bb (ix2 n c) := by
  have hU : ∀ (e : Fin E) (k : Fin A), mulf (Host.gather gA x idxS) nbA (ix2 e k) = x (ix2 (rowOf hN idxS e) k) * ν e :=
    fun e k => by
      rw [mulf_apply, gather_rows_apply gA hN hgA.ho hgA.hc hgA.hob hgA.hsb hgA.hm hgA.hv hgA.hs, hnA]
  unfold after
  rw [addf_apply, hdot, prod_apply]
  refine congrArg (· + bb (ix2 n c)) (Finset.sum_congr rfl fun k _ => congrArg (· * W (ix2 k c)) ?_)
  show Ideal.hostScatterAdd sA zA idxD _ (ix2 n k) = _
  rw [hostScatterAdd_rows_apply sA hsA.h1 hsA.h2 hsA.h3 hsA.h4, hzA, zero_add]
  exact Finset.sum_congr rfl fun e _ => by rw [hU]

include hN hgC hsC hdot hzC hnC in
/-- `before` at `(n, c)`. -/
theorem before_apply (n : Fin N) (c : Fin C) :
    before gC sC dK idxS idxD x zC nbC W bb (ix2 n c)
      = (∑ e : Fin E, if (idxD (startAt e)).toInt = (n.val : ℤ) then (∑ k : Fin A, x (ix2 (rowOf hN idxS e) k) * W (ix2 k c)) * ν e else 0)
          + bb (ix2 n c) := by
  have hU : ∀ (e : Fin E), mulf (Host.gather gC (Host.dotGeneral dK none x W) idxS) nbC (ix2 e c)
      = (∑ k : Fin A, x (ix2 (rowOf hN idxS e) k) * W (ix2 k c)) * ν e := fun e => by
    rw [mulf_apply, gather_rows_apply gC hN hgC.ho hgC.hc hgC.hob hgC.hsb hgC.hm hgC.hv hgC.hs, hnC, hdot, prod_apply]
  unfold before
  rw [addf_apply]
  refine congrArg (· + bb (ix2 n c)) ?_
  show Ideal.hostScatterAdd sC zC idxD _ (ix2 n c) = _
  rw [hostScatterAdd_rows_apply sC hsC.h1 hsC.h2 hsC.h3 hsC.h4, hzC, zero_add]
  exact Finset.sum_congr rfl fun e _ => by rw [hU]

include hN hgA hgC hsA hsC hdot hzA hzC hnA hnC in
/-- THE TWO ARRANGEMENTS AGREE for real data. -/
theorem after_eq_before (hx : ∀ i, IsR (x i)) (hW : ∀ i, IsR (W i)) (hν : ∀ e, IsR (ν e)) :
    after gA sA dK idxS idxD x zA nbA W bb = before gC sC dK idxS idxD x zC nbC W bb := by
  funext i
  obtain ⟨n, c, rfl⟩ : ∃ (n : Fin N) (c : Fin C), i = ix2 n c := ⟨i 0, i 1, eq_ix2 i⟩
  rw [after_apply gA sA dK hN hgA hsA hdot idxS idxD x zA nbA W bb ν hzA hnA,
    before_apply gC sC dK hN hgC hsC hdot idxS idxD x zC nbC W bb ν hzC hnC]
  exact congrArg (· + bb (ix2 n c))
    (Cert.Lib.SegLinear.seg_linear (fun e : Fin E => (idxD (startAt e)).toInt = (n.val : ℤ))
      (fun e k => x (ix2 (rowOf hN idxS e) k)) ν (fun k => W (ix2 k c)) (fun e k => hx _) hν (fun k => hW _)).symm

include hN hgA hsA hdot hzA hnA in
/-- … and the value is a real number when the bias is. -/
theorem after_isR (hx : ∀ i, IsR (x i)) (hW : ∀ i, IsR (W i)) (hν : ∀ e, IsR (ν e)) (hb : ∀ i, IsR (bb i)) (i) :
    IsR (after gA sA dK idxS idxD x zA nbA W bb i) := by
  obtain ⟨n, c, rfl⟩ : ∃ (n : Fin N) (c : Fin C), i = ix2 n c := ⟨i 0, i 1, eq_ix2 i⟩
  rw [after_apply gA sA dK hN hgA hsA hdot idxS idxD x zA nbA W bb ν hzA hnA]
  exact isR_add (isR_sum _ _ fun k _ => isR_mul (isR_sum _ _ fun e _ => isR_ite (isR_mul (hx _) (hν e)) isR_zero) (hW _)) (hb _)

end Layer

end Cert.Gcn

end
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Spec.lean ====
/-
  Two layers of mean aggregation over a graph, on the extended reals, in the two arrangements the programs use.

  Over nodes n, edges e with a source row (s e) and an indicator (p e n) that edge e ends at node n, the segment sum
  of a per-edge quantity f is  seg f n = sum over e of [p e n] f e.  With a per-node count cnt, mx n = max (cnt n) 1
  and inv n = 1 / mx n:

  first layer, both arrangements (they differ only in  a * (1 / m)  against  a / m):
      hid n c = max (sum_k (mean of x over n's edges, at k) * wl1 c k + b1 c + sum_k x n k * wr1 c k) 0
  second layer, projecting BEFORE the edges are summed (convK) or AFTER (convR):
      convK n o = (seg (e -> sum_c hid (s e) c * wl2 o c) n) * inv n + b2 o + sum_c hid n c * wr2 o c
      convR n o = sum_c ((seg (e -> hid (s e) c) n) / mx n) * wl2 o c + b2 o + sum_c hid n c * wr2 o c
  The two agree when every datum is a real number: the step distributes a product over finite sums and exchanges
  two sums, which fail at infinities. The last stage, a rectifier and a row-wise log-softmax, is one function of a
  row applied on both sides.
-/
import Idealize.ShloMosaic.PureOps.Ideal
import proofs.«116715_j20512763806336_2_alg».proof.Proof.LibSegLinear
import proofs.«116715_j20512763806336_2_alg».proof.Proof.LibGcnLayer
import proofs.«116715_j20512763806336_2_alg».proof.Proof.LibRowSoftmax

noncomputable section

open scoped BigOperators

namespace Cert.Sage

open Idealize.ShloMosaic
open Cert.Gcn (IsR isR_zero isR_coe isR_add isR_mul isR_ite isR_sum)
open Cert.Lib.SegLinear (coe_sum coe_ite)
open Cert.Lib.RowSoftmax (maxOf negInf)

/-! ## The law over the reals, and lifted -/

section Law
variable {ι κ : Type*} [Fintype ι] [Fintype κ]

/-- A mean (a segment sum times one factor) commutes with a linear map, over the reals. -/
theorem mean_linear_real (p : ι → Prop) [DecidablePred p] (a : ι → κ → ℝ) (W : κ → ℝ) (v : ℝ) :
    (∑ e, if p e then ∑ k, a e k * W k else 0) * v = ∑ k, ((∑ e, if p e then a e k else 0) * v) * W k := by
  simp only [Finset.sum_mul]
  rw [Finset.sum_comm]
  refine Finset.sum_congr rfl fun e _ => ?_
  by_cases h : p e
  · simp only [h, if_true, Finset.sum_mul]
    exact Finset.sum_congr rfl fun k _ => by ring
  · simp only [h, if_false, zero_mul, Finset.sum_const_zero]

/-- The same on the extended reals, for data that are real numbers. -/
theorem mean_linear (p : ι → Prop) [DecidablePred p] (A : ι → κ → EReal) (W : κ → EReal) (v : EReal)
    (hA : ∀ e k, IsR (A e k)) (hW : ∀ k, IsR (W k)) (hv : IsR v) :
    (∑ e, if p e then ∑ k, A e k * W k else 0) * v = ∑ k, ((∑ e, if p e then A e k else 0) * v) * W k := by
  choose a ha using hA
  choose W' hW using hW
  obtain ⟨v', rfl⟩ := hv
  have L : (∑ e, if p e then ∑ k, A e k * W k else 0) * (v' : EReal)
      = (((∑ e, if p e then ∑ k, a e k * W' k else 0) * v' : ℝ) : EReal) := by
    rw [EReal.coe_mul, coe_sum]
    simp only [coe_ite, coe_sum, EReal.coe_mul, ha, hW]
  have R : ∀ k, ((∑ e, if p e then A e k else 0) * (v' : EReal)) * W k
      = ((((∑ e, if p e then a e k else 0) * v') * W' k : ℝ) : EReal) := by
    intro k
    rw [EReal.coe_mul, EReal.coe_mul, coe_sum]
    simp only [coe_ite, ha, hW]
  simp only [L, R, ← coe_sum]
  exact congrArg _ (mean_linear_real p a W' v')

end Law

/-! ## Real numbers: maxima, the unit, reciprocals -/

theorem isR_max {x y : EReal} : IsR x → IsR y → IsR (max x y)
  | ⟨a, ha⟩, ⟨b, hb⟩ => by
    rcases le_total x y with h | h
    · rw [max_eq_right h]; exact ⟨b, hb⟩
    · rw [max_eq_left h]; exact ⟨a, ha⟩

/-- The float word of 1.0. -/
abbrev one : EReal := Ideal.ofBits .f32 0x3F800000#32

theorem one_eq : one = ((1 : ℝ) : EReal) := by
  simp [one, Ideal.ofBits, Ideal.ieee, -EReal.coe_mul]
  norm_num

/-- max (count, 1) of a real count is a NONZERO real. -/
theorem mx_real {c : EReal} (hc : IsR c) : ∃ r : ℝ, r ≠ 0 ∧ max c one = (r : EReal) := by
  obtain ⟨a, rfl⟩ := hc
  refine ⟨max a 1, ?_, ?_⟩
  · have : (1 : ℝ) ≤ max a 1 := le_max_right _ _
    intro h; rw [h] at this; norm_num at this
  · rw [one_eq]
    rcases le_total a 1 with h | h
    · rw [max_eq_right h, max_eq_right (EReal.coe_le_coe_iff.mpr h)]
    · rw [max_eq_left h, max_eq_left (EReal.coe_le_coe_iff.mpr h)]

/-- A quotient by max (count, 1) is the product with its reciprocal 1 / max (count, 1). -/
theorem div_mx {c : EReal} (hc : IsR c) (y : EReal) : Ideal.div y (max c one) = y * Ideal.div one (max c one) := by
  obtain ⟨r, hr, e⟩ := mx_real hc
  rw [e, Ideal.div_coe hr, Ideal.div_coe hr, one_eq, ← EReal.coe_mul, one_mul]

theorem inv_isR {c : EReal} (hc : IsR c) : IsR (Ideal.div one (max c one)) := by
  obtain ⟨r, hr, e⟩ := mx_real hc
  rw [e, Ideal.div_coe hr, one_eq, ← EReal.coe_mul]
  exact isR_coe _

/-! ## The layers -/

section Layers
variable {E N : Type} [Fintype E] {a b c : ℕ}
  (p : E → N → Prop) [∀ e n, Decidable (p e n)] (s : E → N) (cnt : N → EReal)
  (x : N → Fin a → EReal) (wl1 wr1 : Fin b → Fin a → EReal) (b1 : Fin b → EReal)
  (wl2 wr2 : Fin c → Fin b → EReal) (b2 : Fin c → EReal)

/-- The segment sum: over the edges that end at n. -/
def seg (f : E → EReal) (n : N) : EReal := ∑ e, if p e n then f e else 0

/-- max (count, 1). -/
def mx (n : N) : EReal := max (cnt n) one
/-- 1 / max (count, 1). -/
def inv (n : N) : EReal := Ideal.div one (mx cnt n)

/-- First layer, the mean taken by multiplying with the reciprocal. -/
def hidK (n : N) (j : Fin b) : EReal :=
  max ((∑ k, (seg p (fun e => x (s e) k) n * inv cnt n) * wl1 j k) + b1 j + ∑ k, x n k * wr1 j k) 0
/-- First layer, the mean taken by dividing. -/
def hidR (n : N) (j : Fin b) : EReal :=
  max ((∑ k, Ideal.div (seg p (fun e => x (s e) k) n) (mx cnt n) * wl1 j k) + b1 j + ∑ k, x n k * wr1 j k) 0

/-- Second layer over a hidden layer h, projecting before the edges are summed. -/
def convK (h : N → Fin b → EReal) (n : N) (o : Fin c) : EReal :=
  seg p (fun e => ∑ j, h (s e) j * wl2 o j) n * inv cnt n + b2 o + ∑ j, h n j * wr2 o j
/-- Second layer over a hidden layer h, projecting after the edges are summed and divided. -/
def convR (h : N → Fin b → EReal) (n : N) (o : Fin c) : EReal :=
  (∑ j, Ideal.div (seg p (fun e => h (s e) j) n) (mx cnt n) * wl2 o j) + b2 o + ∑ j, h n j * wr2 o j

/-- A rectifier, then log-softmax along the row: (f j - M) - log (sum_j' exp (f j' - M)), M the row's maximum. -/
def logSoftmaxRelu (f : Fin c → EReal) (j : Fin c) : EReal :=
  (max (f j) 0 - maxOf (fun j' => max (f j') 0))
    - Ideal.log (∑ j'' : Fin c, Ideal.exp (max (f j'') 0 - maxOf (fun j' => max (f j') 0)))

variable (hcnt : ∀ n, IsR (cnt n))

include hcnt in
theorem hid_eq : hidK p s cnt x wl1 wr1 b1 = hidR p s cnt x wl1 wr1 b1 := by
  funext n j
  unfold hidK hidR inv mx
  refine congrArg (fun t => max (t + b1 j + ∑ k, x n k * wr1 j k) 0) (Finset.sum_congr rfl fun k _ => ?_)
  exact congrArg (· * wl1 j k) (div_mx (hcnt n) _).symm

include hcnt in
theorem seg_isR (f : E → EReal) (hf : ∀ e, IsR (f e)) (n : N) : IsR (seg p f n) :=
  isR_sum _ _ fun e _ => isR_ite (hf e) isR_zero

include hcnt in
theorem hidK_isR (hx : ∀ n k, IsR (x n k)) (hwl : ∀ j k, IsR (wl1 j k)) (hwr : ∀ j k, IsR (wr1 j k))
    (hb : ∀ j, IsR (b1 j)) (n : N) (j : Fin b) : IsR (hidK p s cnt x wl1 wr1 b1 n j) := by
  unfold hidK
  refine isR_max (isR_add (isR_add (isR_sum _ _ fun k _ => isR_mul (isR_mul ?_ ?_) (hwl j k)) (hb j))
    (isR_sum _ _ fun k _ => isR_mul (hx n k) (hwr j k))) isR_zero
  · exact seg_isR p cnt hcnt _ (fun e => hx (s e) k) n
  · exact inv_isR (hcnt n)

include hcnt in
/-- THE TWO ARRANGEMENTS OF THE SECOND LAYER AGREE over a real hidden layer and real weights. -/
theorem conv_eq (h : N → Fin b → EReal) (hh : ∀ n j, IsR (h n j)) (hw : ∀ o j, IsR (wl2 o j)) :
    convK p s cnt wl2 wr2 b2 h = convR p s cnt wl2 wr2 b2 h := by
  funext n o
  unfold convK convR
  refine congrArg (fun t => t + b2 o + ∑ j, h n j * wr2 o j) ?_
  unfold seg inv mx
  rw [mean_linear (fun e => p e n) (fun e j => h (s e) j) (fun j => wl2 o j) _ (fun e j => hh (s e) j) (hw o)
    (inv_isR (hcnt n))]
  exact Finset.sum_congr rfl fun j _ => congrArg (· * wl2 o j) (div_mx (hcnt n) _).symm

end Layers

end Cert.Sage

end
-- ==== Proof.Body1.lean ====
/-
  The second region's body, read at an entry, at the exact values.

  Over one tile of 5000 nodes the body forms, for node p and class o,
      conv (p, o) = aggp (p, o) * inv (p, 0) + bl (o) + sum_j h (p, j) * WrT (j, o),
  a rectifier, and the log-softmax along the row: with r = max conv 0 and M the row's maximum,
      out (p, o) = (r (p, o) - M p) - log (sum_o' exp (r (p, o') - M p)).
  Entry (p, o) depends on row p of the tile only.
-/
import proofs.«116715_j20512763806336_2_alg».proof.Proof.Body0
import proofs.«116715_j20512763806336_2_alg».proof.Proof.Spec
import proofs.«116715_j20512763806336_2_alg».proof.Proof.LibRowSoftmax

noncomputable section

open scoped BigOperators

namespace Cert.KernelIdeal.Body

open Cert.KernelIdeal Cert.KernelIdeal.Gen Idealize.ShloMosaic Idealize.ShloMosaic.ValueIdx
open Cert.Lib.RowSoftmax (maxOf keepdims_apply rowMax_apply rowSum_apply shapeCast_a_a1_apply)

/-- The log-softmax chain over a block R whose row p is r: maximum along the row, subtract, exp, sum along the
    row, log, subtract, both row statistics kept as columns and spread back over the lanes. -/
theorem lsm_apply (R : FVec Ideal S5000x64 .f32) (hφ : FKind.Formats .f32)
    (hmax : (0xFF800000#32 : BitVec 32) = FKind.maximumf.neutral .f32 hφ)
    (hadd : (0x00000000#32 : BitVec 32) = FKind.add.neutral .f32 hφ) (p : Fin 5000) (o : Fin 64)
    (r : Fin 64 → EReal) (hR : ∀ o', R (ix2 p o') = r o') :
    subf (subf R (broadcastTo S5000x64 (shapeCast S5000x1
            (multiReduction .maximumf [1] S5000 R 0xFF800000#32 reduces_S5000x64_S5000 hφ hmax)
            shapeCasts_S5000_S5000x1) broadcasts_S5000x1_S5000x64))
        (broadcastTo S5000x64 (log (shapeCast S5000x1
            (multiReduction .add [1] S5000
              (exp (subf R (broadcastTo S5000x64 (shapeCast S5000x1
                (multiReduction .maximumf [1] S5000 R 0xFF800000#32 reduces_S5000x64_S5000 hφ hmax)
                shapeCasts_S5000_S5000x1) broadcasts_S5000x1_S5000x64)))
              0x00000000#32 reduces_S5000x64_S5000 hφ hadd)
            shapeCasts_S5000_S5000x1)) broadcasts_S5000x1_S5000x64) (ix2 p o)
      = (r o - maxOf r) - Ideal.log (∑ o' : Fin 64, Ideal.exp (r o' - maxOf r)) := by
  have hM : ∀ o' : Fin 64, broadcastTo S5000x64 (shapeCast S5000x1
        (multiReduction .maximumf [1] S5000 R 0xFF800000#32 reduces_S5000x64_S5000 hφ hmax)
        shapeCasts_S5000_S5000x1) broadcasts_S5000x1_S5000x64 (ix2 p o') = maxOf r := by
    intro o'
    rw [keepdims_apply _ shapeCasts_S5000_S5000x1 broadcasts_S5000x1_S5000x64 p o',
      rowMax_apply R _ reduces_S5000x64_S5000 hφ hmax p]
    exact congrArg (fun f => (Finset.univ : Finset (Fin 64)).fold max (Ideal.ofBits .f32 0xFF800000#32) f)
      (funext hR)
  have hS : ∀ o' : Fin 64, subf R (broadcastTo S5000x64 (shapeCast S5000x1
        (multiReduction .maximumf [1] S5000 R 0xFF800000#32 reduces_S5000x64_S5000 hφ hmax)
        shapeCasts_S5000_S5000x1) broadcasts_S5000x1_S5000x64) (ix2 p o') = r o' - maxOf r := by
    intro o'
    rw [subf_apply, hM, hR]
  rw [subf_apply, hS, Cert.Lib.ColumnSpread.broadcastTo_a1_ab_apply]
  refine congrArg (fun t => (r o - maxOf r) - t) ?_
  show Ideal.log (shapeCast S5000x1 _ shapeCasts_S5000_S5000x1 (ix2 p (0 : Fin 1))) = _
  rw [shapeCast_a_a1_apply _ shapeCasts_S5000_S5000x1 p 0, rowSum_apply _ _ reduces_S5000x64_S5000 hφ hadd p]
  refine congrArg Ideal.log (Finset.sum_congr rfl fun o' _ => ?_)
  show Ideal.exp (subf R _ (ix2 p o')) = _
  rw [hS]

/-- The second layer's value before the rectifier, at (p, o). -/
theorem conv_apply (v0 : Vec Ideal S5000x64 .f32) (v2 : Vec Ideal S5000x1 .f32) (v6 : Vec Ideal S5000x128 .f32)
    (v9 : Vec Ideal S128x64 .f32) (v12 : Vec Ideal S64 .f32) (p : Fin 5000) (o : Fin 64) :
    (addf (addf (mulf (shapeCast S5000x64 v0 shapeCasts_S5000x64_S5000x64)
          (broadcastTo S5000x64 (shapeCast S5000x1 v2 shapeCasts_S5000x1_S5000x1) broadcasts_S5000x1_S5000x64))
        (broadcastTo S5000x64 (shapeCast S1x64 v12 shapeCasts_S64_S1x64) broadcasts_S1x64_S5000x64))
      (matmul D64 none (truncf .bf16 (shapeCast S5000x128 v6 shapeCasts_S5000x128_S5000x128) bitsLt_bf16_f32)
        (truncf .bf16 (shapeCast S128x64 v9 shapeCasts_S128x64_S128x64) bitsLt_bf16_f32)
        (constant S5000x64 .f32 0x00000000#32)) : FVec Ideal S5000x64 .f32) (ix2 p o)
      = (v0 (ix2 p o) * v2 (ix2 p (0 : Fin 1)) + v12 (ix1 o) + ∑ j : Fin 128, v6 (ix2 p j) * v9 (ix2 j o) : EReal) := by
  rw [addf_apply, addf_apply, mulf_apply, shapeCast_self, shapeCast_self,
    Cert.Lib.ColumnSpread.broadcastTo_a1_ab_apply, broadcastTo_1b_ab_apply, shapeCast_a_1a_apply]
  refine congrArg (fun t => v0 (ix2 p o) * v2 (ix2 p (0 : Fin 1)) + v12 (ix1 o) + t) ?_
  refine (congrFun (Cert.Lib.MatProd.matmul_zero_eq_prod D64 rfl rfl d64_l0 d64_l1 d64_r0 d64_r1 none _ _)
    (ix2 p o)).trans ?_
  rw [Cert.Lib.MatProd.prod_apply]
  refine Finset.sum_congr rfl fun j _ => ?_
  rw [truncf_apply, truncf_apply, shapeCast_self, shapeCast_self]

/-- The stored tile at (p, o): the rectified second layer's row, log-softmaxed. -/
theorem pay_apply (v0 : Vec Ideal S5000x64 .f32) (v2 : Vec Ideal S5000x1 .f32) (v6 : Vec Ideal S5000x128 .f32)
    (v9 : Vec Ideal S128x64 .f32) (v12 : Vec Ideal S64 .f32) (p : Fin 5000) (o : Fin 64) :
    k1_pay1 (F := Ideal) v0 v2 v6 v9 v12 (ix2 p o)
      = Cert.Sage.logSoftmaxRelu
          (fun o' => v0 (ix2 p o') * v2 (ix2 p (0 : Fin 1)) + v12 (ix1 o') + ∑ j : Fin 128, v6 (ix2 p j) * v9 (ix2 j o')) o := by
  unfold k1_pay1
  refine lsm_apply _ (.inl rfl) rfl rfl p o
    (fun o' => max (v0 (ix2 p o') * v2 (ix2 p (0 : Fin 1)) + v12 (ix1 o') + ∑ j : Fin 128, v6 (ix2 p j) * v9 (ix2 j o')) 0)
    (fun o' => ?_)
  rw [maximumf_apply, broadcast_apply]
  exact congrArg₂ max (conv_apply v0 v2 v6 v9 v12 p o') Ideal.ofBits_zero_f32

end Cert.KernelIdeal.Body

end
-- ==== Proof.Arr1.lean ====
/-
  The second region's result array as a whole-array function of the arrays the region finds.

  Point t of the ten stages rows 5000 t ... 5000 t + 4999 of the aggregated projections, the reciprocal counts and
  the hidden layer, all of the weight matrix and the bias, and writes back the same rows of the result: row n of
  the result is the rectified, log-softmaxed second-layer row of node n, and the ten row tiles cover the array.
-/
import proofs.«116715_j20512763806336_2_alg».proof.Proof.Gen.KernelIdeal.Frame
import proofs.«116715_j20512763806336_2_alg».proof.Proof.Body1

set_option maxRecDepth 16384

noncomputable section

open scoped BigOperators

namespace Cert.KernelIdeal.Arr1

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The second layer's row of node n before the rectifier, from the arrays the region finds. -/
def conv (a0 : S50000x64.Idx → EReal) (a1 : S50000x1.Idx → EReal) (a2 : S50000x128.Idx → EReal)
    (a3 : S128x64.Idx → EReal) (a4 : S64.Idx → EReal) (n : Fin 50000) (o : Fin 64) : EReal :=
  a0 (ix2 n o) * a1 (ix2 n (0 : Fin 1)) + a4 (ix1 o) + ∑ j : Fin 128, a2 (ix2 n j) * a3 (ix2 j o)

/-- The result as an array. -/
def Out (a0 : S50000x64.Idx → EReal) (a1 : S50000x1.Idx → EReal) (a2 : S50000x128.Idx → EReal)
    (a3 : S128x64.Idx → EReal) (a4 : S64.Idx → EReal) : S50000x64.Idx → EReal :=
  fun i => Cert.Sage.logSoftmaxRelu (conv a0 a1 a2 a3 a4 ⟨(i 0).val, idx2_lt0 i⟩) ⟨(i 1).val, idx2_lt1 i⟩

theorem Out_ix2 (a0 a1 a2 a3 a4) (n : Fin 50000) (o : Fin 64) :
    Out a0 a1 a2 a3 a4 (ix2 n o) = Cert.Sage.logSoftmaxRelu (conv a0 a1 a2 a3 a4 n) o := rfl

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem t_lt (t : Fin cfg1.N) : t.val < 10 := by
  have h := t.isLt
  have hN : cfg1.N = 10 := N_1
  omega

/-- The node that row p of tile t is. -/
def row (t : Fin cfg1.N) (p : Fin 5000) : Fin 50000 :=
  ⟨t.val * 5000 + p.val, by have := t_lt t; have := p.isLt; omega⟩

section
variable (V : (c : Dev nD) → (b : Ref sig .tc) → Buf (Elt Ideal) ((c : Thread nD τ).loc b))

theorem rd0 (c : Dev nD) (t : Fin cfg1.N) (p : Fin 5000) (o : Fin 64) :
    (iblk1 V c 0 t : Vec Ideal S5000x64 .f32) (ix2 p o) = (V c main_v36 : S50000x64.Idx → EReal) (ix2 (row t p) o) := by
  obtain ⟨e0, e1, -⟩ := idx1 t
  show (V c main_v36 : S50000x64.Idx → EReal) (((cfg1.win 0).blk t).view.emb (ix2 p o)) = _
  refine congrArg (V c main_v36 : S50000x64.Idx → EReal) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * o.val = o.val; rw [e1]; omega

theorem rd1 (c : Dev nD) (t : Fin cfg1.N) (p : Fin 5000) :
    (iblk1 V c 1 t : Vec Ideal S5000x1 .f32) (ix2 p (0 : Fin 1)) = (V c main_v12 : S50000x1.Idx → EReal) (ix2 (row t p) (0 : Fin 1)) := by
  obtain ⟨-, -, e0, e1, -⟩ := idx1 t
  show (V c main_v12 : S50000x1.Idx → EReal) (((cfg1.win 1).blk t).view.emb (ix2 p (0 : Fin 1))) = _
  refine congrArg (V c main_v12 : S50000x1.Idx → EReal) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

theorem rd2 (c : Dev nD) (t : Fin cfg1.N) (p : Fin 5000) (j : Fin 128) :
    (iblk1 V c 2 t : Vec Ideal S5000x128 .f32) (ix2 p j) = (V c main_v26_0 : S50000x128.Idx → EReal) (ix2 (row t p) j) := by
  obtain ⟨-, -, -, -, e0, e1, -⟩ := idx1 t
  show (V c main_v26_0 : S50000x128.Idx → EReal) (((cfg1.win 2).blk t).view.emb (ix2 p j)) = _
  refine congrArg (V c main_v26_0 : S50000x128.Idx → EReal) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 128 + 1 * j.val = j.val; rw [e1]; omega

theorem rd3 (c : Dev nD) (t : Fin cfg1.N) (j : Fin 128) (o : Fin 64) :
    (iblk1 V c 3 t : Vec Ideal S128x64 .f32) (ix2 j o) = (V c main_v37 : S128x64.Idx → EReal) (ix2 j o) := by
  obtain ⟨-, -, -, -, -, -, e0, e1, -⟩ := idx1 t
  show (V c main_v37 : S128x64.Idx → EReal) (((cfg1.win 3).blk t).view.emb (ix2 j o)) = _
  refine congrArg (V c main_v37 : S128x64.Idx → EReal) (funext fun a => Fin.ext ?_)
  match a with
  | ⟨0, _⟩ => show win1_3.index t (0 : Fin 2) * 128 + 1 * j.val = j.val; rw [e0]; omega
  | ⟨1, _⟩ => show win1_3.index t (1 : Fin 2) * 64 + 1 * o.val = o.val; rw [e1]; omega

theorem rd4 (c : Dev nD) (t : Fin cfg1.N) (o : Fin 64) :
    (iblk1 V c 4 t : Vec Ideal S64 .f32) (ix1 o) = (V c main_arg6 : S64.Idx → EReal) (ix1 o) := by
  obtain ⟨-, -, -, -, -, -, -, -, e0, -⟩ := idx1 t
  show (V c main_arg6 : S64.Idx → EReal) (((cfg1.win 4).blk t).view.emb (ix1 o)) = _
  refine congrArg (V c main_arg6 : S64.Idx → EReal) (funext fun a => Fin.ext ?_)
  match a with
  | ⟨0, _⟩ => show win1_4.index t (0 : Fin 1) * 64 + 1 * o.val = o.val; rw [e0]; omega

/-- The stored tile of point t at (p, o) is the result row of node (row t p). -/
theorem tile_out (c : Dev nD) (t : Fin cfg1.N) (p : Fin 5000) (o : Fin 64) :
    k1_pay1 (F := Ideal) (iblk1 V c 0 t) (iblk1 V c 1 t) (iblk1 V c 2 t) (iblk1 V c 3 t) (iblk1 V c 4 t) (ix2 p o)
      = Cert.Sage.logSoftmaxRelu (conv (V c main_v36) (V c main_v12) (V c main_v26_0) (V c main_v37) (V c main_arg6) (row t p)) o := by
  refine (pay_apply (iblk1 V c 0 t) (iblk1 V c 1 t) (iblk1 V c 2 t) (iblk1 V c 3 t) (iblk1 V c 4 t) p o).trans ?_
  refine congrArg (fun f => Cert.Sage.logSoftmaxRelu f o) (funext fun o' => ?_)
  unfold conv
  rw [rd0 V c t p o', rd1 V c t p, rd4 V c t o']
  refine congrArg₂ (· + ·) rfl (Finset.sum_congr rfl fun j _ => ?_)
  rw [rd2 V c t p j, rd3 V c t j o']

theorem emb5 (t : Fin cfg1.N) (p : Fin 5000) (o : Fin 64) :
    ((cfg1.win 5).blk t).view.emb (ix2 p o) = (ix2 (row t p) o : S50000x64.Idx) := by
  obtain ⟨-, -, -, -, -, -, -, -, -, e0, e1⟩ := idx1 t
  funext a; apply Fin.ext
  match a with
  | ⟨0, _⟩ => show win1_5.index t (0 : Fin 2) * 5000 + 1 * p.val = t.val * 5000 + p.val; rw [e0]; omega
  | ⟨1, _⟩ => show win1_5.index t (1 : Fin 2) * 64 + 1 * o.val = o.val; rw [e1]; omega

/-- Point t writes back rows 5000 t ... of the result. -/
theorem flushed5 (c : Dev nD) (t : Fin cfg1.N) :
    (dat1 V c).flushed 5 t = ((cfg1.win 5).blk t).view.read (Elt Ideal)
      (Out (V c main_v36) (V c main_v12) (V c main_v26_0) (V c main_v37) (V c main_arg6)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2,
    View.ld_unit_zero (S := S5000x128) hz2, View.ld_unit_zero (S := S128x64) hz2, View.ld_unit_zero (S := S64) hz1]
  funext y
  obtain ⟨p, o, rfl⟩ : ∃ (p : Fin 5000) (o : Fin 64), y = ix2 p o := ⟨y 0, y 1, eq_ix2 y⟩
  show k1_pay1 (F := Ideal) (iblk1 V c 0 t) (iblk1 V c 1 t) (iblk1 V c 2 t) (iblk1 V c 3 t) (iblk1 V c 4 t) (ix2 p o)
    = Out (V c main_v36) (V c main_v12) (V c main_v26_0) (V c main_v37) (V c main_arg6)
        (((cfg1.win 5).blk t).view.emb (ix2 p o))
  rw [emb5 t p o, Out_ix2]
  exact tile_out V c t p o

theorem mem_blk5 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v38).slice (win1_5.rect t)).set ↔ _
  rw [View.set_slice_whole, Rect.mem_set_unit]
  exact Iff.rfl

theorem cover5 (i : S50000x64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, e0, e1⟩ := idx1 t
  refine ⟨t, flush1_5 t, ?_⟩
  rw [mem_blk5]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE RESULT ARRAY after the region. -/
theorem final5 (c : Dev nD) : (dat1 V c).arrAt 5 cfg1.N
    = Out (V c main_v36) (V c main_v12) (V c main_v26_0) (V c main_v37) (V c main_arg6) :=
  (dat1 V c).arrAt_eq_of_cover 5 _ (fun t _ => flushed5 V c t) cover5

end

end Cert.KernelIdeal.Arr1

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.Ops.lean ====
/-
  The host operations both programs apply around the dense layers, read at an index at the exact values, and the
  two-layer network of Spec.lean instantiated at arrays.

  A gather of whole rows scattered-and-added into zeros is a segment sum (agg_apply); a scalar constant spread over an
  array reads the constant (zeros_apply, ones_apply); a vector placed as a column reads the vector (vec_col_apply); a
  transposed matrix reads the matrix at the swapped index (tr_apply). The instance: edge e ends at node n when its
  destination word, read signed, is n; its source row is its source word clamped into the table.
-/
import Idealize.ShloMosaic.PureOps.Ideal.Laws
import Idealize.ShloMosaic.Lib.ValueIdx
import Idealize.ShloMosaic.Lib.ValueLayout
import Idealize.ShloMosaic.Lib.Pipeline.Value
import proofs.«116715_j20512763806336_2_alg».proof.Proof.Spec
import proofs.«116715_j20512763806336_2_alg».proof.Proof.LibRowGatherScatter
import proofs.«116715_j20512763806336_2_alg».proof.Proof.LibGcnLayer
import proofs.«116715_j20512763806336_2_alg».proof.Proof.LibColBroadcast

noncomputable section

open scoped BigOperators

namespace Cert.Sage.Ops

open Idealize.ShloMosaic Idealize.ShloMosaic.ValueIdx
open Cert.Lib.RowGatherScatter (startAt rowOf gather_rows_apply hostScatterAdd_rows_apply)
open Cert.Gcn (IsR isR_zero isR_coe RowGather RowScatter)

/-! ## Reads at an index -/

/-- Rows gathered at the source words and added at the destination words into zeros: at (n, c) the sum, over the
    edges that end at n, of the table's entry (source row, c). -/
theorem agg_apply {N E C : ℕ} (hN : 0 < N) (d : ScatterDims ⟨2, ![N, C]⟩ ⟨2, ![E, 1]⟩ ⟨2, ![E, C]⟩)
    (g : GatherDims ⟨2, ![N, C]⟩ ⟨2, ![E, 1]⟩ ⟨2, ![E, C]⟩) (hd : RowScatter d) (hg : RowGather g) {w : ℕ}
    (z x : FVec Ideal ⟨2, ![N, C]⟩ .f32) (idxS idxD : IVec ⟨2, ![E, 1]⟩ w) (hz : ∀ i, z i = 0) (n : Fin N) (c : Fin C) :
    Host.scatterAdd d z idxD (Host.gather g x idxS) (ix2 n c)
      = ∑ e : Fin E, if (idxD (startAt e)).toInt = (n.val : ℤ) then x (ix2 (rowOf hN idxS e) c) else 0 := by
  show Ideal.hostScatterAdd d z idxD _ (ix2 n c) = _
  rw [hostScatterAdd_rows_apply d hd.h1 hd.h2 hd.h3 hd.h4, hz, zero_add]
  exact Finset.sum_congr rfl fun e _ => by
    rw [gather_rows_apply g hN hg.ho hg.hc hg.hob hg.hsb hg.hm hg.hv hg.hs]

theorem zeros_apply {t : Shape} (h : (⟨0, ![]⟩ : Shape).BroadcastsInDim t ![]) (j : t.Idx) :
    broadcastInDim t ![] h (constant (F := Ideal) ⟨0, ![]⟩ .f32 0x00000000#32) j = 0 := by
  rw [Cert.Lib.ColBroadcast.scalar_apply, constant_apply]
  exact Ideal.ofBits_zero_f32

theorem ones_apply {t : Shape} (h : (⟨0, ![]⟩ : Shape).BroadcastsInDim t ![]) (j : t.Idx) :
    broadcastInDim t ![] h (constant (F := Ideal) ⟨0, ![]⟩ .f32 0x3F800000#32) j = Cert.Sage.one := by
  rw [Cert.Lib.ColBroadcast.scalar_apply, constant_apply]

/-- A vector placed as the one column of [N, 1] reads the vector. -/
theorem vec_col_apply {α : Type} {N : ℕ} (hN : N ≠ 1) (v : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h v (ix2 n u) = v (ix1 n) :=
  broadcastInDim_apply ![0] h v (ix2 n u) (ix1 n) (fun a => match a with
    | ⟨0, _⟩ => by show n.val = if N = 1 then 0 else n.val; rw [if_neg hN])

/-- A transposed matrix reads the matrix at the swapped index. -/
theorem tr_apply {α : Type} {A B : ℕ} (x : (⟨2, ![A, B]⟩ : Shape).Idx → α)
    (h : (⟨2, ![A, B]⟩ : Shape).Transposes [1, 0] ⟨2, ![B, A]⟩) (k : Fin B) (j : Fin A) :
    transpose ⟨2, ![B, A]⟩ [1, 0] x h (ix2 k j) = x (ix2 j k) :=
  transpose_apply [1, 0] x h (ix2 k j) (ix2 j k) (fun b => match b with
    | ⟨0, _⟩ => rfl
    | ⟨1, _⟩ => rfl)

/-! ## The network at arrays -/

section Inst

variable {w : ℕ} (idxS idxD : IVec ⟨2, ![800000, 1]⟩ w) (cntv : (⟨1, ![50000]⟩ : Shape).Idx → EReal)
  (X : (⟨2, ![50000, 128]⟩ : Shape).Idx → EReal)
  (Wl1 Wr1 : (⟨2, ![128, 128]⟩ : Shape).Idx → EReal) (Bl1 : (⟨1, ![128]⟩ : Shape).Idx → EReal)
  (Wl2 Wr2 : (⟨2, ![64, 128]⟩ : Shape).Idx → EReal) (Bl2 : (⟨1, ![64]⟩ : Shape).Idx → EReal)

/-- Edge e ends at node n. -/
def pI (e : Fin 800000) (n : Fin 50000) : Prop := (idxD (startAt e)).toInt = (n.val : ℤ)

instance (e : Fin 800000) (n : Fin 50000) : Decidable (pI idxD e n) :=
  inferInstanceAs (Decidable ((idxD (startAt e)).toInt = (n.val : ℤ)))

/-- Edge e's source row. -/
def sI (e : Fin 800000) : Fin 50000 := rowOf (N := 50000) (by norm_num) idxS e

def cntI (n : Fin 50000) : EReal := cntv (ix1 n)
def xI (n : Fin 50000) (k : Fin 128) : EReal := X (ix2 n k)

/-- The hidden layer, mean by reciprocal. -/
def hK (n : Fin 50000) (j : Fin 128) : EReal :=
  hidK (pI idxD) (sI idxS) (cntI cntv) (xI X) (fun j k => Wl1 (ix2 j k)) (fun j k => Wr1 (ix2 j k)) (fun j => Bl1 (ix1 j)) n j
/-- The hidden layer, mean by division. -/
def hR (n : Fin 50000) (j : Fin 128) : EReal :=
  hidR (pI idxD) (sI idxS) (cntI cntv) (xI X) (fun j k => Wl1 (ix2 j k)) (fun j k => Wr1 (ix2 j k)) (fun j => Bl1 (ix1 j)) n j

/-- The kernel's arrangement of the whole network at (n, o). -/
def outK (n : Fin 50000) (o : Fin 64) : EReal :=
  logSoftmaxRelu (convK (pI idxD) (sI idxS) (cntI cntv) (fun o j => Wl2 (ix2 o j)) (fun o j => Wr2 (ix2 o j))
    (fun o => Bl2 (ix1 o)) (hK idxS idxD cntv X Wl1 Wr1 Bl1) n) o
/-- The reference's arrangement at (n, o). -/
def outR (n : Fin 50000) (o : Fin 64) : EReal :=
  logSoftmaxRelu (convR (pI idxD) (sI idxS) (cntI cntv) (fun o j => Wl2 (ix2 o j)) (fun o j => Wr2 (ix2 o j))
    (fun o => Bl2 (ix1 o)) (hR idxS idxD cntv X Wl1 Wr1 Bl1) n) o

/-- THE TWO ARRANGEMENTS AGREE when the count, the features and the first layer's and projection's weights are real. -/
theorem out_eq (hc : ∀ i, IsR (cntv i)) (hX : ∀ i, IsR (X i)) (hWl1 : ∀ i, IsR (Wl1 i)) (hWr1 : ∀ i, IsR (Wr1 i))
    (hBl1 : ∀ i, IsR (Bl1 i)) (hWl2 : ∀ i, IsR (Wl2 i)) :
    outK idxS idxD cntv X Wl1 Wr1 Bl1 Wl2 Wr2 Bl2 = outR idxS idxD cntv X Wl1 Wr1 Bl1 Wl2 Wr2 Bl2 := by
  have hcn : ∀ n, IsR (cntI cntv n) := fun n => hc _
  have hh : hK idxS idxD cntv X Wl1 Wr1 Bl1 = hR idxS idxD cntv X Wl1 Wr1 Bl1 := by
    unfold hK hR
    rw [hid_eq (pI idxD) (sI idxS) (cntI cntv) (xI X) _ _ _ hcn]
  funext n o
  unfold outK outR
  rw [← hh, conv_eq (pI idxD) (sI idxS) (cntI cntv) _ _ _ hcn (hK idxS idxD cntv X Wl1 Wr1 Bl1)
    (fun n j => hidK_isR (pI idxD) (sI idxS) (cntI cntv) (xI X) _ _ _ hcn (fun n k => hX _) (fun j k => hWl1 _)
      (fun j k => hWr1 _) (fun j => hBl1 _) n j) (fun o j => hWl2 _)]

end Inst

end Cert.Sage.Ops

end
-- ==== Proof.KVal.lean ====
/-
  The idealized kernel's result as one function of the arguments.

  @main computes on the host, from the edge list's two rows, the destination and source index columns, the per-node
  count and its reciprocal column inv = 1 / max (count, 1), and the first aggregation agg1 (rows of x gathered at the
  sources, added at the destinations); the first region leaves hid and proj (Arr0.lean) at every node; the host
  aggregates proj the same way; the second region leaves the result (Arr1.lean). Read through the frame's fold of
  buffer contents, the result buffer ends at Out (agg of Proj) inv Hid WrT2 bl2, and at entry (n, o) that is the
  kernel's arrangement of the two-layer network of Spec.lean (Ops.outK).
-/
import proofs.«116715_j20512763806336_2_alg».proof.Proof.KRun
import proofs.«116715_j20512763806336_2_alg».proof.Proof.Arr0
import proofs.«116715_j20512763806336_2_alg».proof.Proof.Arr1
import proofs.«116715_j20512763806336_2_alg».proof.Proof.Ops
import Idealize.ShloMosaic.Lib.StableHlo.Run

set_option maxRecDepth 16384

noncomputable section

open scoped BigOperators

namespace Cert.KernelIdeal.KVal

open Cert.KernelIdeal Cert.KernelIdeal.Gen
open Idealize.ShloMosaic Idealize.ShloMosaic.TcCoe Idealize.SL.Sem Idealize.ShloMosaic.ValueIdx Idealize.ShloMosaic.StableHlo
open Cert.KernelIdeal.Arr (Hid Proj hid Hid_ix2 Proj_ix2)
open Cert.KernelIdeal.Arr1 (Out conv Out_ix2)
open Cert.Sage.Ops (pI sI cntI xI hK outK agg_apply zeros_apply ones_apply vec_col_apply tr_apply)

/-! ## The host's arrays as functions of the arguments -/

abbrev I1 := (⟨S800000, .i32⟩ : BufTy).Contents (Elt Ideal)
abbrev IW := (⟨S800000x1, .i32⟩ : BufTy).Contents (Elt Ideal)

/-- Row r of the edge list as a vector of words. -/
def edgeRow0 (e1 : (⟨S2x800000, .i32⟩ : BufTy).Contents (Elt Ideal)) : I1 :=
  shapeCast S800000 (extractStridedSlice S1x800000 ![0, 0] e1 slices_S2x800000_S1x800000_0_0) shapeCasts_S1x800000_S800000
def edgeRow1 (e1 : (⟨S2x800000, .i32⟩ : BufTy).Contents (Elt Ideal)) : I1 :=
  shapeCast S800000 (extractStridedSlice S1x800000 ![1, 0] e1 slices_S2x800000_S1x800000_1_0) shapeCasts_S1x800000_S800000

/-- The destination words as a column of start indices. -/
def dstW (d : I1) : IW := broadcastInDim S800000x1 ![0] bcast_S800000_S800000x1_0 d
/-- The source words, a negative one moved up by the table's length, as a column of start indices. -/
def srcW (s : I1) : IW :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- How many edges end at each node. -/
def cntA (d : I1) : FVec Ideal S50000 .f32 :=
  Host.scatterAdd scatter_S50000_S800000x1_S800000_n_0_0_1
    (broadcastInDim S50000 ![] bcast_S_S50000 (constant (F := Ideal) S_ .f32 0x00000000#32)) (dstW d)
    (broadcastInDim S800000 ![] bcast_S_S800000 (constant (F := Ideal) S_ .f32 0x3F800000#32))
/-- 1 / max (count, 1), as a column. -/
def invCol (d : I1) : FVec Ideal S50000x1 .f32 :=
  broadcastInDim S50000x1 ![0] bcast_S50000_S50000x1_0
    (Host.divf (broadcastInDim S50000 ![] bcast_S_S50000 (constant (F := Ideal) S_ .f32 0x3F800000#32))
      (maximumf (cntA d) (broadcastInDim S50000 ![] bcast_S_S50000 (constant (F := Ideal) S_ .f32 0x3F800000#32))))
/-- Rows gathered at the sources and added at the destinations, 128 wide. -/
def agg128 (x : FVec Ideal S50000x128 .f32) (s d : I1) : FVec Ideal S50000x128 .f32 :=
  Host.scatterAdd scatter_S50000x128_S800000x1_S800000x128_1_0_0_1
    (broadcastInDim S50000x128 ![] bcast_S_S50000x128 (constant (F := Ideal) S_ .f32 0x00000000#32)) (dstW d)
    (Host.gather gather_S50000x128_S800000x1_S800000x128_1_0_n_n_0_1_1128 x (srcW s))
/-- The same, 64 wide. -/
def agg64 (y : FVec Ideal S50000x64 .f32) (s d : I1) : FVec Ideal S50000x64 .f32 :=
  Host.scatterAdd scatter_S50000x64_S800000x1_S800000x64_1_0_0_1
    (broadcastInDim S50000x64 ![] bcast_S_S50000x64 (constant (F := Ideal) S_ .f32 0x00000000#32)) (dstW d)
    (Host.gather gather_S50000x64_S800000x1_S800000x64_1_0_n_n_0_1_164 y (srcW s))
def tr128 (w : FVec Ideal S128x128 .f32) : FVec Ideal S128x128 .f32 := transpose S128x128 [1, 0] w transposes_S128x128_S128x128_1_0
def tr64 (w : FVec Ideal S64x128 .f32) : FVec Ideal S128x64 .f32 := transpose S128x64 [1, 0] w transposes_S64x128_S128x64_1_0

/-! ## The buffers at the regions' entries -/

section
variable (m : (ℓ : Loc nD τ sig) → Buf (Elt Ideal) ℓ) (ρ : Dev nD → PrngReg) (c : Dev nD)

theorem W1_v1 : W1 m ρ c (Proc.devRef .tc main_v1) = edgeRow0 (m ((c : Thread nD τ).loc main_arg1)) := by
  show StableHlo.after hostOps0 (W0 m ρ c) (Proc.devRef .tc main_v1) = _
  after_results_simp <;> rfl
theorem W1_v3 : W1 m ρ c (Proc.devRef .tc main_v3) = edgeRow1 (m ((c : Thread nD τ).loc main_arg1)) := by
  show StableHlo.after hostOps0 (W0 m ρ c) (Proc.devRef .tc main_v3) = _
  after_results_simp <;> rfl
theorem W1_v22 : W1 m ρ c (Proc.devRef .tc main_v22) = agg128 (m ((c : Thread nD τ).loc main_arg0)) (edgeRow0 (m ((c : Thread nD τ).loc main_arg1))) (edgeRow1 (m ((c : Thread nD τ).loc main_arg1))) := by
  show StableHlo.after hostOps0 (W0 m ρ c) (Proc.devRef .tc main_v22) = _
  after_results_simp <;> rfl
theorem W1_v12 : W1 m ρ c (Proc.devRef .tc main_v12) = invCol (edgeRow1 (m ((c : Thread nD τ).loc main_arg1))) := by
  show StableHlo.after hostOps0 (W0 m ρ c) (Proc.devRef .tc main_v12) = _
  after_results_simp <;> rfl
theorem W1_v23 : W1 m ρ c (Proc.devRef .tc main_v23) = tr128 (m ((c : Thread nD τ).loc main_arg2)) := by
  show StableHlo.after hostOps0 (W0 m ρ c) (Proc.devRef .tc main_v23) = _
  after_results_simp <;> rfl
theorem W1_v24 : W1 m ρ c (Proc.devRef .tc main_v24) = tr128 (m ((c : Thread nD τ).loc main_arg4)) := by
  show StableHlo.after hostOps0 (W0 m ρ c) (Proc.devRef .tc main_v24) = _
  after_results_simp <;> rfl
theorem W1_v25 : W1 m ρ c (Proc.devRef .tc main_v25) = tr64 (m ((c : Thread nD τ).loc main_arg5)) := by
  show StableHlo.after hostOps0 (W0 m ρ c) (Proc.devRef .tc main_v25) = _
  after_results_simp <;> rfl
theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl

/-- The hidden layer as the first region leaves it. -/
abbrev HidA : FVec Ideal S50000x128 .f32 :=
  Hid (agg128 (m ((c : Thread nD τ).loc main_arg0)) (edgeRow0 (m ((c : Thread nD τ).loc main_arg1))) (edgeRow1 (m ((c : Thread nD τ).loc main_arg1)))) (invCol (edgeRow1 (m ((c : Thread nD τ).loc main_arg1)))) (m ((c : Thread nD τ).loc main_arg0)) (tr128 (m ((c : Thread nD τ).loc main_arg2))) (m ((c : Thread nD τ).loc main_arg3)) (tr128 (m ((c : Thread nD τ).loc main_arg4)))
/-- The projection as the first region leaves it. -/
abbrev ProjA : FVec Ideal S50000x64 .f32 :=
  Proj (agg128 (m ((c : Thread nD τ).loc main_arg0)) (edgeRow0 (m ((c : Thread nD τ).loc main_arg1))) (edgeRow1 (m ((c : Thread nD τ).loc main_arg1)))) (invCol (edgeRow1 (m ((c : Thread nD τ).loc main_arg1)))) (m ((c : Thread nD τ).loc main_arg0)) (tr128 (m ((c : Thread nD τ).loc main_arg2))) (m ((c : Thread nD τ).loc main_arg3)) (tr128 (m ((c : Thread nD τ).loc main_arg4))) (tr64 (m ((c : Thread nD τ).loc main_arg5)))

theorem W2_v26_0 : W2 m ρ c (Proc.devRef .tc main_v26_0) = HidA m c := by
  refine (W2_arr m ρ c 7).trans ((Cert.KernelIdeal.Arr.final7 (V1 m ρ) c).trans ?_)
  show Hid (W1 m ρ c (Proc.devRef .tc main_v22)) (W1 m ρ c (Proc.devRef .tc main_v12)) (W1 m ρ c (Proc.devRef .tc main_arg0))
    (W1 m ρ c (Proc.devRef .tc main_v23)) (W1 m ρ c (Proc.devRef .tc main_arg3)) (W1 m ρ c (Proc.devRef .tc main_v24)) = _
  rw [W1_v22, W1_v12, W1_arg0, W1_v23, W1_arg3, W1_v24]
theorem W2_v26_1 : W2 m ρ c (Proc.devRef .tc main_v26_1) = ProjA m c := by
  refine (W2_arr m ρ c 8).trans ((Cert.KernelIdeal.Arr.final8 (V1 m ρ) c).trans ?_)
  show Proj (W1 m ρ c (Proc.devRef .tc main_v22)) (W1 m ρ c (Proc.devRef .tc main_v12)) (W1 m ρ c (Proc.devRef .tc main_arg0))
    (W1 m ρ c (Proc.devRef .tc main_v23)) (W1 m ρ c (Proc.devRef .tc main_arg3)) (W1 m ρ c (Proc.devRef .tc main_v24))
    (W1 m ρ c (Proc.devRef .tc main_v25)) = _
  rw [W1_v22, W1_v12, W1_arg0, W1_v23, W1_arg3, W1_v24, W1_v25]
theorem W2_v12 : W2 m ρ c (Proc.devRef .tc main_v12) = invCol (edgeRow1 (m ((c : Thread nD τ).loc main_arg1))) :=
  (W2_arr m ρ c 1).trans (((dat0 (V1 m ρ) c).arrAt_in 1 rfl _).trans ((A_eq0 (V1 m ρ) c 1).trans (W1_v12 m ρ c)))
theorem W2_v1 : W2 m ρ c (Proc.devRef .tc main_v1) = edgeRow0 (m ((c : Thread nD τ).loc main_arg1)) :=
  (W2_of_ne m ρ c main_v1 (by decide)).trans (W1_v1 m ρ c)
theorem W2_v3 : W2 m ρ c (Proc.devRef .tc main_v3) = edgeRow1 (m ((c : Thread nD τ).loc main_arg1)) :=
  (W2_of_ne m ρ c main_v3 (by decide)).trans (W1_v3 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

theorem W3_v36 : W3 m ρ c (Proc.devRef .tc main_v36) = agg64 (ProjA m c) (edgeRow0 (m ((c : Thread nD τ).loc main_arg1))) (edgeRow1 (m ((c : Thread nD τ).loc main_arg1))) := by
  show StableHlo.after hostOps1 (W2 m ρ c) (Proc.devRef .tc main_v36) = _
  rw [← W2_v26_1 m ρ c, ← W2_v1 m ρ c, ← W2_v3 m ρ c]
  generalize W2 m ρ c = W
  after_results_simp <;> rfl
theorem W3_v12 : W3 m ρ c (Proc.devRef .tc main_v12) = invCol (edgeRow1 (m ((c : Thread nD τ).loc main_arg1))) := by
  show StableHlo.after hostOps1 (W2 m ρ c) (Proc.devRef .tc main_v12) = _
  rw [← W2_v12 m ρ c]
  generalize W2 m ρ c = W
  after_results_simp <;> rfl
theorem W3_v26_0 : W3 m ρ c (Proc.devRef .tc main_v26_0) = HidA m c := by
  show StableHlo.after hostOps1 (W2 m ρ c) (Proc.devRef .tc main_v26_0) = _
  rw [← W2_v26_0 m ρ c]
  generalize W2 m ρ c = W
  after_results_simp <;> rfl
theorem W3_v37 : W3 m ρ c (Proc.devRef .tc main_v37) = tr64 (m ((c : Thread nD τ).loc main_arg7)) := by
  show StableHlo.after hostOps1 (W2 m ρ c) (Proc.devRef .tc main_v37) = _
  rw [← W2_arg7 m ρ c]
  generalize W2 m ρ c = W
  after_results_simp <;> rfl
theorem W3_arg6 : W3 m ρ c (Proc.devRef .tc main_arg6) = (m ((c : Thread nD τ).loc main_arg6)) := by
  show StableHlo.after hostOps1 (W2 m ρ c) (Proc.devRef .tc main_arg6) = _
  rw [← W2_arg6 m ρ c]
  generalize W2 m ρ c = W
  after_results_simp <;> rfl

/-- THE RESULT BUFFER after the run, as one function of the arguments. -/
theorem result_eq : W4 m ρ c (Proc.devRef .tc main_v38)
    = Out (agg64 (ProjA m c) (edgeRow0 (m ((c : Thread nD τ).loc main_arg1))) (edgeRow1 (m ((c : Thread nD τ).loc main_arg1)))) (invCol (edgeRow1 (m ((c : Thread nD τ).loc main_arg1)))) (HidA m c) (tr64 (m ((c : Thread nD τ).loc main_arg7))) (m ((c : Thread nD τ).loc main_arg6)) := by
  refine (W4_arr m ρ c 5).trans ((Cert.KernelIdeal.Arr1.final5 (V3 m ρ) c).trans ?_)
  show Out (W3 m ρ c (Proc.devRef .tc main_v36)) (W3 m ρ c (Proc.devRef .tc main_v12)) (W3 m ρ c (Proc.devRef .tc main_v26_0))
    (W3 m ρ c (Proc.devRef .tc main_v37)) (W3 m ρ c (Proc.devRef .tc main_arg6)) = _
  rw [W3_v36, W3_v12, W3_v26_0, W3_v37, W3_arg6]

end

end Cert.KernelIdeal.KVal

end
-- ==== Proof.KRead.lean ====
/-
  The idealized kernel's result at an entry: the kernel's arrangement of the two-layer network.

  Entry (n, o) of Out (agg of Proj) inv Hid WrT2 bl2 is the rectified log-softmax, at o, of the row
      o' -> (sum over the edges e that end at n of proj (source e, o')) * inv n + bl2 o' + sum_j hid (n, j) * Wr2 (o', j),
  with proj (m, o') = sum_j hid (m, j) * Wl2 (o', j) and hid the first layer over the aggregated features: each host
  array is read at its index (a segment sum, the reciprocal of the clamped count, a transposed weight).
-/
import proofs.«116715_j20512763806336_2_alg».proof.Proof.KVal

noncomputable section

open scoped BigOperators

namespace Cert.KernelIdeal.KRead

open Cert.KernelIdeal Cert.KernelIdeal.Gen Cert.KernelIdeal.KVal
open Idealize.ShloMosaic Idealize.ShloMosaic.ValueIdx
open Cert.KernelIdeal.Arr (Hid Proj hid Hid_ix2 Proj_ix2)
open Cert.KernelIdeal.Arr1 (Out conv Out_ix2)
open Cert.Sage.Ops (pI sI cntI xI hK outK agg_apply zeros_apply ones_apply vec_col_apply tr_apply)

theorem rs128 : Cert.Gcn.RowScatter scatter_S50000x128_S800000x1_S800000x128_1_0_0_1 := ⟨rfl, rfl, rfl, rfl⟩
theorem rg128 : Cert.Gcn.RowGather gather_S50000x128_S800000x1_S800000x128_1_0_n_n_0_1_1128 := ⟨rfl, rfl, rfl, rfl, rfl, rfl, rfl⟩
theorem rs64 : Cert.Gcn.RowScatter scatter_S50000x64_S800000x1_S800000x64_1_0_0_1 := ⟨rfl, rfl, rfl, rfl⟩
theorem rg64 : Cert.Gcn.RowGather gather_S50000x64_S800000x1_S800000x64_1_0_n_n_0_1_164 := ⟨rfl, rfl, rfl, rfl, rfl, rfl, rfl⟩

variable (x : FVec Ideal S50000x128 .f32) (s d : I1) (w2 w4 : FVec Ideal S128x128 .f32) (b1 : FVec Ideal S128 .f32)
  (w5 w7 : FVec Ideal S64x128 .f32) (b2 : FVec Ideal S64 .f32)

/-- The host's quotient at an index. -/
theorem hostDivf_apply {sh : Shape} (a b : FVec Ideal sh .f32) (i : sh.Idx) : Host.divf a b i = Ideal.div (a i) (b i) := rfl

/-- The reciprocal column at node n. -/
theorem inv_read (n : Fin 50000) : invCol d (ix2 n (0 : Fin 1)) = Cert.Sage.inv (cntI (cntA d)) n := by
  unfold invCol Cert.Sage.inv Cert.Sage.mx Cert.Sage.Ops.cntI
  rw [vec_col_apply (N := 50000) (by norm_num), hostDivf_apply, maximumf_apply, ones_apply bcast_S_S50000 (ix1 n)]

/-- The 128-wide aggregation at (n, k): the segment sum of the table's column k over the edges that end at n. -/
theorem agg128_read (n : Fin 50000) (k : Fin 128) :
    agg128 x s d (ix2 n k) = Cert.Sage.seg (pI (dstW d)) (fun e => x (ix2 (sI (srcW s) e) k)) n := by
  unfold agg128
  rw [agg_apply (by norm_num) _ _ rs128 rg128 _ x (srcW s) (dstW d) (fun i => zeros_apply _ i) n k]
  rfl

/-- The 64-wide aggregation at (n, o). -/
theorem agg64_read (y : FVec Ideal S50000x64 .f32) (n : Fin 50000) (o : Fin 64) :
    agg64 y s d (ix2 n o) = Cert.Sage.seg (pI (dstW d)) (fun e => y (ix2 (sI (srcW s) e) o)) n := by
  unfold agg64
  rw [agg_apply (by norm_num) _ _ rs64 rg64 _ y (srcW s) (dstW d) (fun i => zeros_apply _ i) n o]
  rfl

/-- The hidden layer at (n, j). -/
theorem hid_read (n : Fin 50000) (j : Fin 128) :
    hid (agg128 x s d) (invCol d) x (tr128 w2) b1 (tr128 w4) n j = hK (srcW s) (dstW d) (cntA d) x w2 w4 b1 n j := by
  unfold hid hK Cert.Sage.hidK
  rw [inv_read d n]
  refine congrArg₂ (fun a b => max (a + b1 (ix1 j) + b) 0) (Finset.sum_congr rfl fun k _ => ?_)
    (Finset.sum_congr rfl fun k _ => ?_)
  · rw [agg128_read x s d n k, show tr128 w2 (ix2 k j) = w2 (ix2 j k) from tr_apply w2 _ k j]
    rfl
  · rw [show tr128 w4 (ix2 k j) = w4 (ix2 j k) from tr_apply w4 _ k j]
    rfl

/-- THE RESULT AT (n, o). -/
theorem out_read (n : Fin 50000) (o : Fin 64) :
    Out (agg64 (Proj (agg128 x s d) (invCol d) x (tr128 w2) b1 (tr128 w4) (tr64 w5)) s d) (invCol d)
        (Hid (agg128 x s d) (invCol d) x (tr128 w2) b1 (tr128 w4)) (tr64 w7) b2 (ix2 n o)
      = outK (srcW s) (dstW d) (cntA d) x w2 w4 b1 w5 w7 b2 n o := by
  rw [Out_ix2]
  unfold outK
  refine congrArg (fun f => Cert.Sage.logSoftmaxRelu f o) (funext fun o' => ?_)
  unfold conv Cert.Sage.convK
  rw [inv_read d n, agg64_read s d _ n o']
  refine congrArg₂ (fun a b => a * Cert.Sage.inv (cntI (cntA d)) n + b2 (ix1 o') + b) ?_
    (Finset.sum_congr rfl fun j _ => ?_)
  · unfold Cert.Sage.seg
    refine Finset.sum_congr rfl fun e _ => ?_
    dsimp only
    refine if_congr Iff.rfl ?_ rfl
    rw [Proj_ix2]
    refine Finset.sum_congr rfl fun j _ => ?_
    rw [hid_read x s d w2 w4 b1, show tr64 w5 (ix2 j o') = w5 (ix2 o' j) from tr_apply w5 _ j o']
  · rw [Hid_ix2, hid_read x s d w2 w4 b1, show tr64 w7 (ix2 j o') = w7 (ix2 o' j) from tr_apply w7 _ j o']

end Cert.KernelIdeal.KRead

end
-- ==== Proof.RDefs.lean ====
/-
  The reference's value as named functions of the arguments, mirroring its printed operations.

  From the edge list: the destination and source index columns, the per-node count, max (count, 1) spread over a
  row of features; the aggregation (rows gathered at the sources, added at the destinations); a layer: the
  aggregation DIVIDED by max (count, 1), times the transposed left weights, plus the bias, plus the features times
  the transposed right weights, rectified; and the log-softmax along the rows.
-/
import proofs.«116715_j20512763806336_2_alg».proof.Proof.Gen.ReferenceIdeal
import Idealize.ShloMosaic.PureOps.Ideal.Laws

noncomputable section

namespace Cert.ReferenceIdeal.RVal

open Cert.ReferenceIdeal Cert.ReferenceIdeal.Gen Idealize.ShloMosaic

abbrev I1 := (⟨S800000, .i32⟩ : BufTy).Contents (Elt Ideal)
abbrev IW := (⟨S800000x1, .i32⟩ : BufTy).Contents (Elt Ideal)

def edgeRow0 (e1 : (⟨S2x800000, .i32⟩ : BufTy).Contents (Elt Ideal)) : I1 :=
  shapeCast S800000 (extractStridedSlice S1x800000 ![0, 0] e1 slices_S2x800000_S1x800000_0_0) shapeCasts_S1x800000_S800000
def edgeRow1 (e1 : (⟨S2x800000, .i32⟩ : BufTy).Contents (Elt Ideal)) : I1 :=
  shapeCast S800000 (extractStridedSlice S1x800000 ![1, 0] e1 slices_S2x800000_S1x800000_1_0) shapeCasts_S1x800000_S800000

def dstW (d : I1) : IW := broadcastInDim S800000x1 ![0] bcast_S800000_S800000x1_0 d
def srcW (s : I1) : IW :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def cntA (d : I1) : FVec Ideal S50000 .f32 :=
  Host.scatterAdd scatter_S50000_S800000x1_S800000_n_0_0_1
    (broadcastInDim S50000 ![] bcast_S_S50000 (constant (F := Ideal) S_ .f32 0x00000000#32)) (dstW d)
    (broadcastInDim S800000 ![] bcast_S_S800000 (constant (F := Ideal) S_ .f32 0x3F800000#32))

/-- max (count, 1), spread over 128 features. -/
def mxCol (d : I1) : FVec Ideal S50000x128 .f32 :=
  broadcastInDim S50000x128 ![0, 1] bcast_S50000x1_S50000x128_0_1
    (broadcastInDim S50000x1 ![0] bcast_S50000_S50000x1_0
      (maximumf (cntA d) (broadcastInDim S50000 ![] bcast_S_S50000 (constant (F := Ideal) S_ .f32 0x3F800000#32))))

def agg128 (x : FVec Ideal S50000x128 .f32) (s d : I1) : FVec Ideal S50000x128 .f32 :=
  Host.scatterAdd scatter_S50000x128_S800000x1_S800000x128_1_0_0_1
    (broadcastInDim S50000x128 ![] bcast_S_S50000x128 (constant (F := Ideal) S_ .f32 0x00000000#32)) (dstW d)
    (Host.gather gather_S50000x128_S800000x1_S800000x128_1_0_n_n_0_1_1128 x (srcW s))

def tr128 (w : FVec Ideal S128x128 .f32) : FVec Ideal S128x128 .f32 := transpose S128x128 [1, 0] w transposes_S128x128_S128x128_1_0
def tr64 (w : FVec Ideal S64x128 .f32) : FVec Ideal S128x64 .f32 := transpose S128x64 [1, 0] w transposes_S64x128_S128x64_1_0

def bias128 (b : FVec Ideal S128 .f32) : FVec Ideal S50000x128 .f32 :=
  broadcastInDim S50000x128 ![0, 1] bcast_S1x128_S50000x128_0_1 (broadcastInDim S1x128 ![1] bcast_S128_S1x128_1 b)
def bias64 (b : FVec Ideal S64 .f32) : FVec Ideal S50000x64 .f32 :=
  broadcastInDim S50000x64 ![0, 1] bcast_S1x64_S50000x64_0_1 (broadcastInDim S1x64 ![1] bcast_S64_S1x64_1 b)

/-- The first layer before its rectifier. -/
def pre1 (x : FVec Ideal S50000x128 .f32) (s d : I1) (w2 : FVec Ideal S128x128 .f32) (b1 : FVec Ideal S128 .f32)
    (w4 : FVec Ideal S128x128 .f32) : FVec Ideal S50000x128 .f32 :=
  addf (addf (Host.dotGeneral dot_S50000x128_S128x128_S50000x128_1_0_0_1_n_n none
        (Host.divf (agg128 x s d) (mxCol d)) (tr128 w2)) (bias128 b1))
      (Host.dotGeneral dot_S50000x128_S128x128_S50000x128_1_0_0_1_n_n none x (tr128 w4))

/-- The first layer. -/
def layer1 (x : FVec Ideal S50000x128 .f32) (s d : I1) (w2 : FVec Ideal S128x128 .f32) (b1 : FVec Ideal S128 .f32)
    (w4 : FVec Ideal S128x128 .f32) : FVec Ideal S50000x128 .f32 :=
  maximumf (pre1 x s d w2 b1 w4)
    (broadcastInDim S50000x128 ![] bcast_S_S50000x128 (constant (F := Ideal) S_ .f32 0x00000000#32))

/-- The second layer over a hidden layer h, before its rectifier. -/
def pre2 (h : FVec Ideal S50000x128 .f32) (s d : I1) (w5 : FVec Ideal S64x128 .f32) (b2 : FVec Ideal S64 .f32)
    (w7 : FVec Ideal S64x128 .f32) : FVec Ideal S50000x64 .f32 :=
  addf (addf (Host.dotGeneral dot_S50000x128_S128x64_S50000x64_1_0_0_1_n_n none
        (Host.divf (agg128 h s d) (mxCol d)) (tr64 w5)) (bias64 b2))
      (Host.dotGeneral dot_S50000x128_S128x64_S50000x64_1_0_0_1_n_n none h (tr64 w7))

/-- The second layer over a hidden layer h. -/
def layer2 (h : FVec Ideal S50000x128 .f32) (s d : I1) (w5 : FVec Ideal S64x128 .f32) (b2 : FVec Ideal S64 .f32)
    (w7 : FVec Ideal S64x128 .f32) : FVec Ideal S50000x64 .f32 :=
  maximumf (pre2 h s d w5 b2 w7)
    (broadcastInDim S50000x64 ![] bcast_S_S50000x64 (constant (F := Ideal) S_ .f32 0x00000000#32))

/-- The row maxima, kept as a column and spread back over the lanes. -/
def rowMaxB (r : FVec Ideal S50000x64 .f32) : FVec Ideal S50000x64 .f32 :=
  broadcastInDim S50000x64 ![0, 1] bcast_S50000x1_S50000x64_0_1
    (broadcastInDim S50000x1 ![0] bcast_S50000_S50000x1_0
      (maximumf (broadcastInDim S50000 ![] bcast_S_S50000 (constant (F := Ideal) S_ .f32 0xFF800000#32))
        (Host.reduce FloatOps.maximumf r (constant (F := Ideal) S_ .f32 0xFF800000#32) reducesTo_S50000x64_S50000_d1 h_S_)))

/-- The log-softmax along the rows. -/
def lsm (r : FVec Ideal S50000x64 .f32) : FVec Ideal S50000x64 .f32 :=
  subf (subf r (rowMaxB r))
    (broadcastInDim S50000x64 ![0, 1] bcast_S50000x1_S50000x64_0_1
      (Host.log (broadcastInDim S50000x1 ![0] bcast_S50000_S50000x1_0
        (Host.reduceAdd (Host.exp (subf r (rowMaxB r))) (constant (F := Ideal) S_ .f32 0x00000000#32)
          reducesTo_S50000x64_S50000_d1 h_S_))))

/-- The reference's result. -/
def result (x : FVec Ideal S50000x128 .f32) (e1 : (⟨S2x800000, .i32⟩ : BufTy).Contents (Elt Ideal))
    (w2 : FVec Ideal S128x128 .f32) (b1 : FVec Ideal S128 .f32) (w4 : FVec Ideal S128x128 .f32)
    (w5 : FVec Ideal S64x128 .f32) (b2 : FVec Ideal S64 .f32) (w7 : FVec Ideal S64x128 .f32) : FVec Ideal S50000x64 .f32 :=
  lsm (layer2 (layer1 x (edgeRow0 e1) (edgeRow1 e1) w2 b1 w4) (edgeRow0 e1) (edgeRow1 e1) w5 b2 w7)

end Cert.ReferenceIdeal.RVal

end
-- ==== Proof.RRead.lean ====
/-
  The reference's value at an entry: the reference's arrangement of the two-layer network.

  Each host operation is read at its index: a dot_general over one contracted axis is rows times columns, the
  count column and the bias rows read their vectors, a transposed weight reads the weight at the swapped index, the
  host's maximum along a row is the fold of max from -inf and its sum along a row the sum of the row.
-/
import proofs.«116715_j20512763806336_2_alg».proof.Proof.RDefs
import proofs.«116715_j20512763806336_2_alg».proof.Proof.Ops
import proofs.«116715_j20512763806336_2_alg».proof.Proof.LibMatProd
import proofs.«116715_j20512763806336_2_alg».proof.Proof.LibDenseLayer
import proofs.«116715_j20512763806336_2_alg».proof.Proof.LibColBroadcast
import proofs.«116715_j20512763806336_2_alg».proof.Proof.LibRowSoftmax
import Idealize.ShloMosaic.Lib.IdealHost
import Idealize.ShloMosaic.PureOps.Reduce

noncomputable section

open scoped BigOperators

namespace Cert.ReferenceIdeal.RRead

open Cert.ReferenceIdeal Cert.ReferenceIdeal.Gen Cert.ReferenceIdeal.RVal
open Idealize.ShloMosaic Idealize.ShloMosaic.ValueIdx
open Cert.Sage.Ops (pI sI cntI xI hR outR agg_apply zeros_apply ones_apply vec_col_apply tr_apply)
open Cert.Lib.RowSoftmax (maxOf negInf max_negInf_maxOf lift_row)

/-! ## The records -/

abbrev D128 : DotDims S50000x128 S128x128 S50000x128 := dot_S50000x128_S128x128_S50000x128_1_0_0_1_n_n
abbrev D64 : DotDims S50000x128 S128x64 S50000x64 := dot_S50000x128_S128x64_S50000x64_1_0_0_1_n_n

theorem d128_l0 (j : S50000x128.Idx) (q : D128.contr.Idx) : (D128.lhsIdx j q 0).val = (j 0).val := by
  unfold DotDims.lhsIdx
  rw [dif_neg (show ¬(0 : Fin S50000x128.rank) ∈ D128.lhsBatch by decide),
    dif_pos (show (0 : Fin S50000x128.rank) ∈ D128.lhsNonContracting by decide)]
  rfl
theorem d128_l1 (j : S50000x128.Idx) (q : D128.contr.Idx) : (D128.lhsIdx j q 1).val = (q ⟨0, by decide⟩).val :=
  D128.lhsIdx_val_of_single rfl j q
theorem d128_r0 (j : S50000x128.Idx) (q : D128.contr.Idx) : (D128.rhsIdx j q 0).val = (q ⟨0, by decide⟩).val :=
  D128.rhsIdx_val_of_single rfl j q
theorem d128_r1 (j : S50000x128.Idx) (q : D128.contr.Idx) : (D128.rhsIdx j q 1).val = (j 1).val := by
  unfold DotDims.rhsIdx
  rw [dif_neg (show ¬(1 : Fin S128x128.rank) ∈ D128.rhsBatch by decide),
    dif_pos (show (1 : Fin S128x128.rank) ∈ D128.rhsNonContracting by decide)]
  rfl
theorem d64_l0 (j : S50000x64.Idx) (q : D64.contr.Idx) : (D64.lhsIdx j q 0).val = (j 0).val := by
  unfold DotDims.lhsIdx
  rw [dif_neg (show ¬(0 : Fin S50000x128.rank) ∈ D64.lhsBatch by decide),
    dif_pos (show (0 : Fin S50000x128.rank) ∈ D64.lhsNonContracting by decide)]
  rfl
theorem d64_l1 (j : S50000x64.Idx) (q : D64.contr.Idx) : (D64.lhsIdx j q 1).val = (q ⟨0, by decide⟩).val :=
  D64.lhsIdx_val_of_single rfl j q
theorem d64_r0 (j : S50000x64.Idx) (q : D64.contr.Idx) : (D64.rhsIdx j q 0).val = (q ⟨0, by decide⟩).val :=
  D64.rhsIdx_val_of_single rfl j q
theorem d64_r1 (j : S50000x64.Idx) (q : D64.contr.Idx) : (D64.rhsIdx j q 1).val = (j 1).val := by
  unfold DotDims.rhsIdx
  rw [dif_neg (show ¬(1 : Fin S128x64.rank) ∈ D64.rhsBatch by decide),
    dif_pos (show (1 : Fin S128x64.rank) ∈ D64.rhsNonContracting by decide)]
  rfl

theorem rs128 : Cert.Gcn.RowScatter scatter_S50000x128_S800000x1_S800000x128_1_0_0_1 := ⟨rfl, rfl, rfl, rfl⟩
theorem rg128 : Cert.Gcn.RowGather gather_S50000x128_S800000x1_S800000x128_1_0_n_n_0_1_1128 := ⟨rfl, rfl, rfl, rfl, rfl, rfl, rfl⟩

/-- A column [N, 1] repeated over C columns reads the column. -/
theorem col_rep_apply {α : Type} {N C : ℕ} (hN : N ≠ 1) (v : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h v (ix2 n c) = v (ix2 n (⟨0, Nat.one_pos⟩ : Fin 1)) :=
  broadcastInDim_apply ![0, 1] h v (ix2 n c) (ix2 n (⟨0, Nat.one_pos⟩ : Fin 1)) (fun a => match a with
    | ⟨0, _⟩ => by show n.val = if N = 1 then 0 else n.val; rw [if_neg hN]
    | ⟨1, _⟩ => by show (0 : ℕ) = if (1 : ℕ) = 1 then 0 else c.val; rw [if_pos rfl])

theorem hostDivf_apply {sh : Shape} (a b : FVec Ideal sh .f32) (i : sh.Idx) : Host.divf a b i = Ideal.div (a i) (b i) := rfl
theorem hostLog_apply {sh : Shape} (a : FVec Ideal sh .f32) (i : sh.Idx) : Host.log a i = Ideal.log (a i) := rfl
theorem hostExp_apply {sh : Shape} (a : FVec Ideal sh .f32) (i : sh.Idx) : Host.exp a i = Ideal.exp (a i) := rfl

variable (x : FVec Ideal S50000x128 .f32) (s d : I1) (w2 w4 : FVec Ideal S128x128 .f32) (b1 : FVec Ideal S128 .f32)
  (w5 w7 : FVec Ideal S64x128 .f32) (b2 : FVec Ideal S64 .f32)

/-! ## The layers -/

theorem mx_read (n : Fin 50000) (k : Fin 128) : mxCol d (ix2 n k) = Cert.Sage.mx (cntI (cntA d)) n := by
  unfold mxCol Cert.Sage.mx Cert.Sage.Ops.cntI
  rw [Cert.Lib.ColBroadcast.col_apply (a := 50000) (by norm_num), maximumf_apply, ones_apply bcast_S_S50000 (ix1 n)]

theorem agg128_read (y : FVec Ideal S50000x128 .f32) (n : Fin 50000) (k : Fin 128) :
    agg128 y s d (ix2 n k) = Cert.Sage.seg (pI (dstW d)) (fun e => y (ix2 (sI (srcW s) e) k)) n := by
  unfold agg128
  rw [agg_apply (by norm_num) _ _ rs128 rg128 _ y (srcW s) (dstW d) (fun i => zeros_apply _ i) n k]
  rfl

theorem dot128_read (L : FVec Ideal S50000x128 .f32) (R : FVec Ideal S128x128 .f32) (n : Fin 50000) (j : Fin 128) :
    Host.dotGeneral D128 none L R (ix2 n j) = ∑ k : Fin 128, L (ix2 n k) * R (ix2 k j) := by
  rw [Cert.Lib.MatProd.dotGeneral_eq_prod D128 rfl rfl d128_l0 d128_l1 d128_r0 d128_r1 none L R, Cert.Lib.MatProd.prod_apply]

theorem dot64_read (L : FVec Ideal S50000x128 .f32) (R : FVec Ideal S128x64 .f32) (n : Fin 50000) (o : Fin 64) :
    Host.dotGeneral D64 none L R (ix2 n o) = ∑ k : Fin 128, L (ix2 n k) * R (ix2 k o) := by
  rw [Cert.Lib.MatProd.dotGeneral_eq_prod D64 rfl rfl d64_l0 d64_l1 d64_r0 d64_r1 none L R, Cert.Lib.MatProd.prod_apply]

/-- The first layer at (n, j). -/
theorem layer1_read (n : Fin 50000) (j : Fin 128) :
    layer1 x s d w2 b1 w4 (ix2 n j) = hR (srcW s) (dstW d) (cntA d) x w2 w4 b1 n j := by
  unfold layer1 pre1 hR Cert.Sage.hidR
  rw [maximumf_apply, zeros_apply, addf_apply, addf_apply, dot128_read, dot128_read,
    show bias128 b1 (ix2 n j) = b1 (ix1 j) from Cert.Lib.DenseLayer.bias_apply (N := 128) (by norm_num) b1 _ _ n j]
  refine congrArg₂ (fun a b => max (a + b1 (ix1 j) + b) 0) (Finset.sum_congr rfl fun k _ => ?_)
    (Finset.sum_congr rfl fun k _ => ?_)
  · rw [hostDivf_apply, agg128_read s d x n k, mx_read d n k, show tr128 w2 (ix2 k j) = w2 (ix2 j k) from tr_apply w2 _ k j]
    rfl
  · rw [show tr128 w4 (ix2 k j) = w4 (ix2 j k) from tr_apply w4 _ k j]
    rfl

/-- The second layer over a hidden layer h, at (n, o). -/
theorem layer2_read (h : FVec Ideal S50000x128 .f32) (n : Fin 50000) (o : Fin 64) :
    layer2 h s d w5 b2 w7 (ix2 n o)
      = max (Cert.Sage.convR (pI (dstW d)) (sI (srcW s)) (cntI (cntA d)) (fun o j => w5 (ix2 o j)) (fun o j => w7 (ix2 o j))
          (fun o => b2 (ix1 o)) (fun n j => h (ix2 n j)) n o) 0 := by
  unfold layer2 pre2 Cert.Sage.convR
  rw [maximumf_apply, zeros_apply, addf_apply, addf_apply, dot64_read, dot64_read,
    show bias64 b2 (ix2 n o) = b2 (ix1 o) from Cert.Lib.DenseLayer.bias_apply (N := 64) (by norm_num) b2 _ _ n o]
  refine congrArg₂ (fun a b => max (a + b2 (ix1 o) + b) 0) (Finset.sum_congr rfl fun k _ => ?_)
    (Finset.sum_congr rfl fun k _ => ?_)
  · rw [hostDivf_apply, agg128_read s d h n k, mx_read d n k, show tr64 w5 (ix2 k o) = w5 (ix2 o k) from tr_apply w5 _ k o]
  · rw [show tr64 w7 (ix2 k o) = w7 (ix2 o k) from tr_apply w7 _ k o]

/-! ## The log-softmax -/

theorem hRed : S50000x64.Reduces [1] S50000 := by decide

theorem rowMax_read (r : FVec Ideal S50000x64 .f32) (n : Fin 50000) (o : Fin 64) :
    rowMaxB r (ix2 n o) = maxOf (fun o' => r (ix2 n o')) := by
  unfold rowMaxB
  rw [Cert.Lib.ColBroadcast.col_apply (a := 50000) (by norm_num), maximumf_apply, Cert.Lib.ColBroadcast.scalar_apply, constant_apply,
    Host.reduce_eq_fold_single FloatOps.maximumf r _ reducesTo_S50000x64_S50000_d1 hRed h_S_ (ix1 n)]
  refine Eq.trans ?_ (max_negInf_maxOf (fun o' => r (ix2 n o')))
  refine congrArg (max negInf) ?_
  exact congrArg (fun f => (Finset.univ : Finset (Fin 64)).fold max negInf f) (funext fun k => congrArg r (lift_row hRed n k))

theorem lsm_read (r : FVec Ideal S50000x64 .f32) (n : Fin 50000) (o : Fin 64) :
    lsm r (ix2 n o) = (r (ix2 n o) - maxOf (fun o' => r (ix2 n o')))
      - Ideal.log (∑ o'' : Fin 64, Ideal.exp (r (ix2 n o'') - maxOf (fun o' => r (ix2 n o')))) := by
  unfold lsm
  rw [subf_apply, subf_apply, rowMax_read r n o, col_rep_apply (N := 50000) (by norm_num)]
  refine congrArg (fun t => (r (ix2 n o) - maxOf (fun o' => r (ix2 n o'))) - t) ?_
  rw [hostLog_apply, vec_col_apply (N := 50000) (by norm_num), hostReduceAdd_apply,
    Ideal.hostReduceAdd_single reducesTo_S50000x64_S50000_d1 hRed, constant_apply, Ideal.ofBits_zero_f32, zero_add]
  refine congrArg Ideal.log (Finset.sum_congr rfl fun k _ => ?_)
  rw [lift_row hRed n k, hostExp_apply, subf_apply, rowMax_read r n k]

/-! ## The result -/

/-- THE REFERENCE'S RESULT AT (n, o). -/
theorem result_read (e1 : (⟨S2x800000, .i32⟩ : BufTy).Contents (Elt Ideal)) (n : Fin 50000) (o : Fin 64) :
    result x e1 w2 b1 w4 w5 b2 w7 (ix2 n o)
      = outR (srcW (edgeRow0 e1)) (dstW (edgeRow1 e1)) (cntA (edgeRow1 e1)) x w2 w4 b1 w5 w7 b2 n o := by
  unfold result outR Cert.Sage.logSoftmaxRelu
  have hh : (fun (n : Fin 50000) (j : Fin 128) => layer1 x (edgeRow0 e1) (edgeRow1 e1) w2 b1 w4 (ix2 n j))
      = hR (srcW (edgeRow0 e1)) (dstW (edgeRow1 e1)) (cntA (edgeRow1 e1)) x w2 w4 b1 :=
    funext fun n => funext fun j => layer1_read x (edgeRow0 e1) (edgeRow1 e1) w2 w4 b1 n j
  rw [lsm_read]
  simp only [layer2_read, hh]

end Cert.ReferenceIdeal.RRead

end
-- ==== Proof.RStage.lean ====
/-
  The reference's result buffer, read through its operations in stages.

  The run leaves the result buffer at the fold of the 91 operations over the launch contents. The fold of a list
  cut in two is the fold of the second part over the fold of the first. The list is cut where a value is used more
  than once and around each outlined function (the two rectifiers, the log-softmax, itself in three parts); each part,
  read over an ARBITRARY valuation, leaves in a few buffers named functions (RDefs.lean) of a few buffers of that
  valuation, and the parts compose to the reference's value as one function of the arguments.
-/
import proofs.«116715_j20512763806336_2_alg».proof.Proof.RefRun
import proofs.«116715_j20512763806336_2_alg».proof.Proof.RDefs
import Idealize.ShloMosaic.PureOps.Ideal

set_option maxRecDepth 16384

noncomputable section

namespace Cert.ReferenceIdeal.RStage

open Cert.ReferenceIdeal Cert.ReferenceIdeal.Gen Cert.ReferenceIdeal.Value Cert.ReferenceIdeal.RVal
open Idealize.ShloMosaic Idealize.ShloMosaic.TcCoe Idealize.SL.Sem Idealize.ShloMosaic.StableHlo

theorem after_append (l1 l2 : List (HloOp τ sig (Elt Ideal))) (V : Valuation τ sig (Elt Ideal)) :
    after (l1 ++ l2) V = after l2 (after l1 V) := by
  induction l1 generalizing V with
  | nil => rfl
  | cons op l ih => exact ih _

/-- One pass: unroll the fold over a segment of the operations and read each operation's result. -/
macro "stage_simp" : tactic =>
  `(tactic| (simp (disch := decide) only [ops, List.take_succ_cons, List.take_zero, List.drop_succ_cons, List.drop_zero,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

abbrev opsI : List (HloOp τ sig (Elt Ideal)) := ops (F := Ideal)

/-! ## The transports of an outlined function's values between its buffers' table types and their tensor types

  Each is the identity: the buffer's type in the signature's table computes to the tensor type. One lemma per
  tensor type and direction; a lemma stated at one buffer rewrites at every buffer of that type. -/

theorem toBuf_s0 (v : (⟨S_, .f32⟩ : BufTy).Contents (Elt Ideal)) :
    (TRef.of (sig := sig) (T := ⟨S_, .f32⟩) main_call2_cst).toBuf v = v := rfl
theorem ofBuf_s0 (v : (⟨S_, .f32⟩ : BufTy).Contents (Elt Ideal)) :
    (TRef.of (sig := sig) (T := ⟨S_, .f32⟩) main_call2_cst).ofBuf v = v := rfl
theorem toBuf_s1 (v : (⟨S50000, .f32⟩ : BufTy).Contents (Elt Ideal)) :
    (TRef.of (sig := sig) (T := ⟨S50000, .f32⟩) main_call2_v0).toBuf v = v := rfl
theorem ofBuf_s1 (v : (⟨S50000, .f32⟩ : BufTy).Contents (Elt Ideal)) :
    (TRef.of (sig := sig) (T := ⟨S50000, .f32⟩) main_call2_v0).ofBuf v = v := rfl
theorem toBuf_s2 (v : (⟨S50000x1, .f32⟩ : BufTy).Contents (Elt Ideal)) :
    (TRef.of (sig := sig) (T := ⟨S50000x1, .f32⟩) main_call2_v3).toBuf v = v := rfl
theorem ofBuf_s2 (v : (⟨S50000x1, .f32⟩ : BufTy).Contents (Elt Ideal)) :
    (TRef.of (sig := sig) (T := ⟨S50000x1, .f32⟩) main_call2_v3).ofBuf v = v := rfl
theorem toBuf_s3 (v : (⟨S50000x64, .f32⟩ : BufTy).Contents (Elt Ideal)) :
    (TRef.of (sig := sig) (T := ⟨S50000x64, .f32⟩) main_v59).toBuf v = v := rfl
theorem ofBuf_s3 (v : (⟨S50000x64, .f32⟩ : BufTy).Contents (Elt Ideal)) :
    (TRef.of (sig := sig) (T := ⟨S50000x64, .f32⟩) main_v59).ofBuf v = v := rfl
theorem toBuf_s4 (v : (⟨S50000x128, .f32⟩ : BufTy).Contents (Elt Ideal)) :
    (TRef.of (sig := sig) (T := ⟨S50000x128, .f32⟩) main_v31).toBuf v = v := rfl
theorem ofBuf_s4 (v : (⟨S50000x128, .f32⟩ : BufTy).Contents (Elt Ideal)) :
    (TRef.of (sig := sig) (T := ⟨S50000x128, .f32⟩) main_v31).ofBuf v = v := rfl

/-- Remove the transports, one rewrite at a time. -/
macro "strip_casts" : tactic =>
  `(tactic| repeat (first
    | rewrite [toBuf_s0] | rewrite [ofBuf_s0] | rewrite [toBuf_s1] | rewrite [ofBuf_s1] | rewrite [toBuf_s2] | rewrite [ofBuf_s2]
    | rewrite [toBuf_s3] | rewrite [ofBuf_s3] | rewrite [toBuf_s4] | rewrite [ofBuf_s4]))
/-- What is left after the first layer's plain operations, ... after its rectifier, ... and so on. -/
abbrev r1 : List (HloOp τ sig (Elt Ideal)) := opsI.drop 37
abbrev r2 : List (HloOp τ sig (Elt Ideal)) := (opsI.drop 37).drop 3
abbrev r3 : List (HloOp τ sig (Elt Ideal)) := ((opsI.drop 37).drop 3).drop 33
abbrev r4 : List (HloOp τ sig (Elt Ideal)) := (((opsI.drop 37).drop 3).drop 33).drop 3
abbrev r5 : List (HloOp τ sig (Elt Ideal)) := ((((opsI.drop 37).drop 3).drop 33).drop 3).drop 5
abbrev r6 : List (HloOp τ sig (Elt Ideal)) := (((((opsI.drop 37).drop 3).drop 33).drop 3).drop 5).drop 4

theorem ops_split : opsI = opsI.take 37 ++ (r1.take 3 ++ (r2.take 33 ++ (r3.take 3 ++ (r4.take 5 ++ (r5.take 4 ++ r6))))) := by
  unfold r1 r2 r3 r4 r5 r6
  rw [List.take_append_drop, List.take_append_drop, List.take_append_drop, List.take_append_drop,
    List.take_append_drop, List.take_append_drop]

abbrev zeros128 : FVec Ideal S50000x128 .f32 :=
  broadcastInDim S50000x128 ![] bcast_S_S50000x128 (constant (F := Ideal) S_ .f32 0x00000000#32)
abbrev zeros64 : FVec Ideal S50000x64 .f32 :=
  broadcastInDim S50000x64 ![] bcast_S_S50000x64 (constant (F := Ideal) S_ .f32 0x00000000#32)

section
variable (V : Valuation τ sig (Elt Ideal))

/-! ## 1: the first layer's plain operations -/

theorem s1_v30 : after (opsI.take 37) V (Proc.devRef .tc main_v30)
    = pre1 (V (Proc.devRef .tc main_arg0)) (edgeRow0 (V (Proc.devRef .tc main_arg1))) (edgeRow1 (V (Proc.devRef .tc main_arg1)))
        (V (Proc.devRef .tc main_arg2)) (V (Proc.devRef .tc main_arg3)) (V (Proc.devRef .tc main_arg4)) := by
  stage_simp
  unfold pre1 agg128 mxCol cntA dstW srcW tr128 bias128 edgeRow0 edgeRow1
  rfl
theorem s1_v1 : after (opsI.take 37) V (Proc.devRef .tc main_v1) = edgeRow0 (V (Proc.devRef .tc main_arg1)) := by
  stage_simp
  rfl
theorem s1_v3 : after (opsI.take 37) V (Proc.devRef .tc main_v3) = edgeRow1 (V (Proc.devRef .tc main_arg1)) := by
  stage_simp
  rfl
theorem s1_arg5 : after (opsI.take 37) V (Proc.devRef .tc main_arg5) = V (Proc.devRef .tc main_arg5) := by stage_simp
theorem s1_arg6 : after (opsI.take 37) V (Proc.devRef .tc main_arg6) = V (Proc.devRef .tc main_arg6) := by stage_simp
theorem s1_arg7 : after (opsI.take 37) V (Proc.devRef .tc main_arg7) = V (Proc.devRef .tc main_arg7) := by stage_simp

/-! ## 2: its rectifier -/

theorem s2_v31 : after (r1.take 3) V (Proc.devRef .tc main_v31)
    = (maximumf (V (Proc.devRef .tc main_v30) : FVec Ideal S50000x128 .f32) zeros128 : FVec Ideal S50000x128 .f32) := by
  unfold r1
  stage_simp
  strip_casts
  rfl
theorem s2_v1 : after (r1.take 3) V (Proc.devRef .tc main_v1) = V (Proc.devRef .tc main_v1) := by unfold r1; stage_simp
theorem s2_v3 : after (r1.take 3) V (Proc.devRef .tc main_v3) = V (Proc.devRef .tc main_v3) := by unfold r1; stage_simp
theorem s2_arg5 : after (r1.take 3) V (Proc.devRef .tc main_arg5) = V (Proc.devRef .tc main_arg5) := by unfold r1; stage_simp
theorem s2_arg6 : after (r1.take 3) V (Proc.devRef .tc main_arg6) = V (Proc.devRef .tc main_arg6) := by unfold r1; stage_simp
theorem s2_arg7 : after (r1.take 3) V (Proc.devRef .tc main_arg7) = V (Proc.devRef .tc main_arg7) := by unfold r1; stage_simp

/-! ## 3: the second layer's plain operations -/

theorem s3_v58 : after (r2.take 33) V (Proc.devRef .tc main_v58)
    = pre2 (V (Proc.devRef .tc main_v31)) (V (Proc.devRef .tc main_v1)) (V (Proc.devRef .tc main_v3))
        (V (Proc.devRef .tc main_arg5)) (V (Proc.devRef .tc main_arg6)) (V (Proc.devRef .tc main_arg7)) := by
  unfold r2
  stage_simp
  unfold pre2 agg128 mxCol cntA dstW srcW tr64 bias64
  rfl

/-! ## 4: its rectifier -/

theorem s4_v59 : after (r3.take 3) V (Proc.devRef .tc main_v59)
    = (maximumf (V (Proc.devRef .tc main_v58) : FVec Ideal S50000x64 .f32) zeros64 : FVec Ideal S50000x64 .f32) := by
  unfold r3
  stage_simp
  strip_casts
  rfl

/-! ## 5-7: the log-softmax -/

theorem s5_v2 : after (r4.take 5) V (Proc.devRef .tc main_call2_v2)
    = maximumf (broadcastInDim S50000 ![] bcast_S_S50000 (constant (F := Ideal) S_ .f32 0xFF800000#32))
        (Host.reduce FloatOps.maximumf (V (Proc.devRef .tc main_v59)) (constant (F := Ideal) S_ .f32 0xFF800000#32)
          reducesTo_S50000x64_S50000_d1 h_S_) := by
  unfold r4
  stage_simp
  strip_casts
  rfl
theorem s5_v59 : after (r4.take 5) V (Proc.devRef .tc main_v59) = V (Proc.devRef .tc main_v59) := by unfold r4; stage_simp

theorem s6_v5 : after (r5.take 4) V (Proc.devRef .tc main_call2_v5)
    = (subf (V (Proc.devRef .tc main_v59) : FVec Ideal S50000x64 .f32)
        (broadcastInDim S50000x64 ![0, 1] bcast_S50000x1_S50000x64_0_1
          (broadcastInDim S50000x1 ![0] bcast_S50000_S50000x1_0 (V (Proc.devRef .tc main_call2_v2) : FVec Ideal S50000 .f32)))
        : FVec Ideal S50000x64 .f32) := by
  unfold r5
  stage_simp
  strip_casts
  rfl
theorem s6_v6 : after (r5.take 4) V (Proc.devRef .tc main_call2_v6)
    = (Host.exp (subf (V (Proc.devRef .tc main_v59) : FVec Ideal S50000x64 .f32)
        (broadcastInDim S50000x64 ![0, 1] bcast_S50000x1_S50000x64_0_1
          (broadcastInDim S50000x1 ![0] bcast_S50000_S50000x1_0 (V (Proc.devRef .tc main_call2_v2) : FVec Ideal S50000 .f32))))
        : FVec Ideal S50000x64 .f32) := by
  unfold r5
  stage_simp
  strip_casts
  rfl

theorem s7_v60 : after r6 V (Proc.devRef .tc main_v60)
    = (subf (V (Proc.devRef .tc main_call2_v5) : FVec Ideal S50000x64 .f32)
        (broadcastInDim S50000x64 ![0, 1] bcast_S50000x1_S50000x64_0_1
          (Host.log (broadcastInDim S50000x1 ![0] bcast_S50000_S50000x1_0
            (Host.reduceAdd (V (Proc.devRef .tc main_call2_v6) : FVec Ideal S50000x64 .f32) (constant (F := Ideal) S_ .f32 0x00000000#32)
              reducesTo_S50000x64_S50000_d1 h_S_)))) : FVec Ideal S50000x64 .f32) := by
  unfold r6
  stage_simp
  strip_casts
  rfl

/-- THE RESULT BUFFER after all the operations, from any contents. -/
theorem result_eq : after opsI V (Proc.devRef .tc main_v60)
    = result (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) := by
  rw [ops_split, after_append, after_append, after_append, after_append, after_append, after_append,
    s7_v60, s6_v5, s6_v6, s5_v2, s5_v59, s4_v59, s3_v58, s2_v31, s2_v1, s2_v3, s2_arg5, s2_arg6, s2_arg7,
    s1_v30, s1_v1, s1_v3, s1_arg5, s1_arg6, s1_arg7]
  unfold result lsm rowMaxB layer2 layer1
  rfl

end

end Cert.ReferenceIdeal.RStage

end
-- ==== Proof.Finite.lean ====
/-
  What the precondition says: every entry of a float argument is a real number.

  The precondition is the conjunction, over the seven float arguments, of "all entries satisfy |x| < +inf", each
  a reduction by "and" of the entrywise comparisons. An extended real whose absolute value is below +inf is a real
  number. Read off for the five arguments the algebra needs: the features, the first layer's two weight matrices
  and bias, and the second layer's left weight matrix.
-/
import proofs.«116715_j20512763806336_2_alg».proof.Pre_finite_inputs
import proofs.«116715_j20512763806336_2_alg».proof.Proof.LibGcnLayer
import proofs.«116715_j20512763806336_2_alg».proof.Proof.LibColBroadcast
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs
open Cert.Gcn (IsR)

instance : Subsingleton S_.Idx := ⟨fun a b => funext fun d => d.elim0⟩

/-- An extended real with |x| < +inf is a real number. -/
theorem isR_of_abs_lt (x : EReal) (h : Ideal.cmp .olt (max x (-x)) (Ideal.ofBits .f32 0x7F800000#32) = 1#1) : IsR x := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- One argument: its "all finite" flag is set, so every entry is real. -/
theorem all_real {s : Shape} {axes : List (Fin s.rank)} (a : FVec Ideal s .f32) (hb : S_.BroadcastsInDim s ![])
    (h' : s.ReducesTo axes S_) (hu : 0 < S_.numel)
    (e : Host.reduce IntOp.andi (cmpf .olt (Host.absf a) (broadcastInDim s ![] hb (constant (F := Ideal) S_ .f32 0x7F800000#32)))
      (constantI S_ 1 1#1) h' hu ix0 = 1#1) (i : s.Idx) : IsR (a i) := by
  have hi := Host.reduce_andi_all _ _ h' hu ix0 e i
  refine isR_of_abs_lt (a i) ?_
  have hc : broadcastInDim s ![] hb (constant (F := Ideal) S_ .f32 0x7F800000#32) i = Ideal.ofBits .f32 0x7F800000#32 := by
    rw [Cert.Lib.ColBroadcast.scalar_apply, constant_apply]
  rw [← hc]
  exact hi

variable [Cert.Pre_finite_inputs.Facts]

/-- THE PRECONDITION READ: the five arguments the algebra needs are real everywhere. -/
theorem finite (a0 : FVec Ideal S50000x128 .f32) (a1 : IVec S2x800000 32) (a2 : FVec Ideal S128x128 .f32)
    (a3 : FVec Ideal S128 .f32) (a4 : FVec Ideal S128x128 .f32) (a5 : FVec Ideal S64x128 .f32) (a6 : FVec Ideal S64 .f32)
    (a7 : FVec Ideal S64x128 .f32) (h : fn (F := Ideal) a0 a1 a2 a3 a4 a5 a6 a7 = fun _ => 1#1) :
    (∀ i, IsR (a0 i)) ∧ (∀ i, IsR (a2 i)) ∧ (∀ i, IsR (a3 i)) ∧ (∀ i, IsR (a4 i)) ∧ (∀ i, IsR (a5 i)) := by
  have h0 := congrFun h ix0
  dsimp only [fn, fn_part1] at h0
  obtain ⟨h28, -⟩ := IntOp.andi_eq_one.mp h0
  obtain ⟨h23, -⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨all_real a0 _ _ _ h3, all_real a2 _ _ _ h7, all_real a3 _ _ _ h12, all_real a4 _ _ _ h17, all_real a5 _ _ _ h22⟩

end Cert.Finite

end
-- ==== Proof.Bridge.lean ====
/-
  The two results are one array.

  The kernel's result buffer ends at Out ... (KVal.lean), whose entry (n, o) is the kernel's arrangement outK of the
  two-layer network (KRead.lean); the reference's ends at its composed value (RStage.lean), whose entry (n, o) is the
  reference's arrangement outR (RRead.lean); both over the SAME index columns and count, computed by the same host
  operations from the edge list. Under the precondition every float argument is real (Finite.lean), the count is a
  finite sum of ones, and the two arrangements agree (Ops.out_eq).
-/
import proofs.«116715_j20512763806336_2_alg».proof.Defs
import proofs.«116715_j20512763806336_2_alg».proof.Proof.KRead
import proofs.«116715_j20512763806336_2_alg».proof.Proof.RRead
import proofs.«116715_j20512763806336_2_alg».proof.Proof.RStage
import proofs.«116715_j20512763806336_2_alg».proof.Proof.Finite
import proofs.«116715_j20512763806336_2_alg».proof.Proof.Gen.Pre_finite_inputs

set_option maxRecDepth 16384

noncomputable section

namespace Cert.Bridge

open Idealize.ShloMosaic Idealize.ShloMosaic.TcCoe Idealize.SL.Sem Idealize.ShloMosaic.ValueIdx Idealize.ShloMosaic.StableHlo
open Cert.Gcn (IsR isR_zero isR_coe)
open Cert.Sage.Ops (outK outR out_eq zeros_apply ones_apply)

abbrev K.I1 := Cert.KernelIdeal.KVal.I1

/-! ## The host's index columns and count: the same operations in both programs -/

theorem srcW_eq (s : K.I1) : Cert.ReferenceIdeal.RVal.srcW s = Cert.KernelIdeal.KVal.srcW s := rfl
theorem dstW_eq (d : K.I1) : Cert.ReferenceIdeal.RVal.dstW d = Cert.KernelIdeal.KVal.dstW d := rfl
theorem row0_eq (e1 : (⟨Cert.KernelIdeal.S2x800000, .i32⟩ : BufTy).Contents (Elt Ideal)) :
    Cert.ReferenceIdeal.RVal.edgeRow0 e1 = Cert.KernelIdeal.KVal.edgeRow0 e1 := rfl
theorem row1_eq (e1 : (⟨Cert.KernelIdeal.S2x800000, .i32⟩ : BufTy).Contents (Elt Ideal)) :
    Cert.ReferenceIdeal.RVal.edgeRow1 e1 = Cert.KernelIdeal.KVal.edgeRow1 e1 := rfl
theorem scat1_eq : (Cert.ReferenceIdeal.scatter_S50000_S800000x1_S800000_n_0_0_1
      : ScatterDims ⟨1, ![50000]⟩ ⟨2, ![800000, 1]⟩ ⟨1, ![800000]⟩)
    = Cert.KernelIdeal.scatter_S50000_S800000x1_S800000_n_0_0_1 := rfl
theorem cntA_eq (d : K.I1) : Cert.ReferenceIdeal.RVal.cntA d = Cert.KernelIdeal.KVal.cntA d := by
  unfold Cert.ReferenceIdeal.RVal.cntA Cert.KernelIdeal.KVal.cntA
  rw [scat1_eq, dstW_eq]

/-- The count is a real number at every node: a finite sum of ones. -/
theorem cnt_isR (d : K.I1) (i : (⟨1, ![50000]⟩ : Shape).Idx) : IsR (Cert.KernelIdeal.KVal.cntA d i) := by
  unfold Cert.KernelIdeal.KVal.cntA
  refine Cert.Gcn.scatterAdd_isR _ _ _ _ (fun j => ?_) (fun j => ?_) i
  · rw [zeros_apply]; exact isR_zero
  · rw [ones_apply _ j, Cert.Sage.one_eq]; exact isR_coe _

/-! ## The two result buffers -/

section
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- From memories that agree on the arguments, the arguments satisfying the precondition, the reference's result
    buffer (the fold of its operations over its launch contents) is the kernel's (the frame's fold at its result). -/
theorem value_eq [Cert.Pre_finite_inputs.Facts] (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    after (Cert.ReferenceIdeal.Value.ops (F := Ideal)) (launchContents m' c) (Proc.devRef .tc Cert.ReferenceIdeal.main_v60)
      = Cert.KernelIdeal.Gen.W4 m ρ c (Proc.devRef .tc Cert.KernelIdeal.main_v38) := by
  refine (Cert.ReferenceIdeal.RStage.result_eq (launchContents m' c)).trans ?_
  show Cert.ReferenceIdeal.RVal.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [h0, h1, h2, h3, h4, h5, h6, h7, Cert.KernelIdeal.KVal.result_eq m ρ c]
  obtain ⟨hX, hW2, hB1, hW4, hW5⟩ := Cert.Finite.finite _ _ _ _ _ _ _ _ hpre
  funext i
  obtain ⟨n, o, rfl⟩ : ∃ (n : Fin 50000) (o : Fin 64), i = ix2 n o := ⟨i 0, i 1, eq_ix2 i⟩
  rw [Cert.ReferenceIdeal.RRead.result_read, Cert.KernelIdeal.KRead.out_read, row0_eq, row1_eq, srcW_eq, dstW_eq, cntA_eq]
  exact (congrFun (congrFun (out_eq _ _ _ _ _ _ _ _ _ _ (cnt_isR _) hX hW2 hW4 hB1 hW5) n) o).symm

end

/-! ## The claim -/

/-- At the exact values the kernel's result array and the reference's are equal, entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  exact value_eq m ρ m' c (hpre c) a0 a1 a2 a3 a4 a5 a6 a7

end Cert.Bridge

end
-- ==== Proof.lean ====
/-
  A two-layer mean-aggregation graph network with a log-softmax read-out, the kernel against its reference.

  Both programs gather the source rows of the 800000 edges, add them at the destination nodes, and divide by
  max (in-degree, 1); a layer is  relu (mean · Wl^T + bl + x · Wr^T). The kernel multiplies by the reciprocal
  1 / max (deg, 1) where the reference divides, and in the second layer it applies Wl2 BEFORE the edges are summed
  (it aggregates the 64-wide projection) where the reference applies it after (it aggregates the 128-wide hidden
  layer). The first difference is the identity a / r = a * (1 / r) for a nonzero real r; the second is linearity of
  the mean, which distributes a product over finite sums and exchanges two sums: both hold because, under the
  precondition, every float argument is a real number, the in-degree is a finite sum of ones, and therefore the
  hidden layer is real (Spec.lean: mean_linear, conv_eq). The last stage, a rectifier and a row-wise log-softmax,
  is one function of a row on both sides.

  The kernel's side: the run with its result buffer named (KRun.lean), each region's output arrays as whole-array
  functions of what the region finds (Body0/Body1: a tile's entry; Arr0/Arr1: the ten row tiles cover the array),
  the host stretches read through the fold of buffer contents (KVal.lean), and the result at an entry (KRead.lean).
  The reference's side: its run (RefRun.lean), its operations read in stages (RStage.lean, RDefs.lean) and at an
  entry (RRead.lean). The precondition read (Finite.lean), the two joined (Ops.lean, Bridge.lean).
-/
import proofs.«116715_j20512763806336_2_alg».proof.Defs
import proofs.«116715_j20512763806336_2_alg».proof.Proof.Gen.Kernel
import proofs.«116715_j20512763806336_2_alg».proof.Proof.Gen.Kernel.Frame
import proofs.«116715_j20512763806336_2_alg».proof.Proof.Gen.KernelIdeal
import proofs.«116715_j20512763806336_2_alg».proof.Proof.Gen.KernelIdeal.Frame
import proofs.«116715_j20512763806336_2_alg».proof.Proof.Gen.ReferenceIdeal
import proofs.«116715_j20512763806336_2_alg».proof.Proof.Gen.Pre_finite_inputs
import proofs.«116715_j20512763806336_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Bridge.algebraic⟩

end Cert.Proof

end
